-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v68)) (v1 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_v69) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_v81) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x4 : Shape := ⟨2, ![100000, 4]⟩
abbrev S2x1600000 : Shape := ⟨2, ![2, 1600000]⟩
abbrev S512x2 : Shape := ⟨2, ![512, 2]⟩
abbrev S100000 : Shape := ⟨1, ![100000]⟩
abbrev S6x128 : Shape := ⟨2, ![6, 128]⟩
abbrev S128 : Shape := ⟨1, ![128]⟩
abbrev S128x128 : Shape := ⟨2, ![128, 128]⟩
abbrev S128x8 : Shape := ⟨2, ![128, 8]⟩
abbrev S8 : Shape := ⟨1, ![8]⟩
abbrev S_ : Shape := ⟨0, ![]⟩

class Facts : Prop where
  bcast_S_S100000x4 : S_.BroadcastsInDim S100000x4 (![] : Fin 0 → Fin S100000x4.rank)
  reducesTo_S100000x4_S_d0_1 : S100000x4.ReducesTo [0, 1] S_
  h_S_ : 0 < S_.numel
  bcast_S_S512x2 : S_.BroadcastsInDim S512x2 (![] : Fin 0 → Fin S512x2.rank)
  reducesTo_S512x2_S_d0_1 : S512x2.ReducesTo [0, 1] S_
  bcast_S_S6x128 : S_.BroadcastsInDim S6x128 (![] : Fin 0 → Fin S6x128.rank)
  reducesTo_S6x128_S_d0_1 : S6x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x8 : S_.BroadcastsInDim S128x8 (![] : Fin 0 → Fin S128x8.rank)
  reducesTo_S128x8_S_d0_1 : S128x8.ReducesTo [0, 1] S_
  bcast_S_S8 : S_.BroadcastsInDim S8 (![] : Fin 0 → Fin S8.rank)
  reducesTo_S8_S_d0 : S8.ReducesTo [0] S_

variable [Facts]

def fn_part2 {F : FTy → Type} [FloatOps F] (main_arg9 : FVec F S128 .f32) (main_arg10 : FVec F S128x8 .f32) (main_arg11 : FVec F S8 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x8 .f32 := Host.absf main_arg10
  let main_cst_14 : FVec F S_ .f32 := constant S_ .f32 0x7F800000#32
  let main_v40 : FVec F S128x8 .f32 := broadcastInDim S128x8 ![] bcast_S_S128x8 main_cst_14
  let main_v41 : IVec S128x8 1 := cmpf .olt main_v39 main_v40
  let main_c_15 : IVec S_ 1 := constantI S_ 1 1#1
  let main_v42 : IVec S_ 1 := (fun x v => Host.reduce IntOp.andi x v reducesTo_S128x8_S_d0_1 h_S_) main_v41 main_c_15
  let main_v43 : IVec S_ 1 := andi main_v38 main_v42
  let main_v44 : FVec F S8 .f32 := Host.absf main_arg11
  let main_cst_16 : FVec F S_ .f32 := constant S_ .f32 0x7F800000#32
  let main_v45 : FVec F S8 .f32 := broadcastInDim S8 ![] bcast_S_S8 main_cst_16
  let main_v46 : IVec S8 1 := cmpf .olt main_v44 main_v45
  let main_c_17 : IVec S_ 1 := constantI S_ 1 1#1
  let main_v47 : IVec S_ 1 := (fun x v => Host.reduce IntOp.andi x v reducesTo_S8_S_d0 h_S_) main_v46 main_c_17
  let main_v48 : IVec S_ 1 := andi main_v43 main_v47
  main_v48

def fn_part1 {F : FTy → Type} [FloatOps F] (main_arg6 : FVec F S128x128 .f32) (main_arg7 : FVec F S128 .f32) (main_arg8 : FVec F S128x128 .f32) (main_arg9 : FVec F S128 .f32) (main_arg10 : FVec F S128x8 .f32) (main_arg11 : FVec F S8 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_v33

def fn {F : FTy → Type} [FloatOps F] (main_arg0 : FVec F S100000x4 .f32) (main_arg1 : IVec S2x1600000 32) (main_arg2 : FVec F S512x2 .f32) (main_arg3 : IVec S100000 32) (main_arg4 : FVec F S6x128 .f32) (main_arg5 : FVec F S128 .f32) (main_arg6 : FVec F S128x128 .f32) (main_arg7 : FVec F S128 .f32) (main_arg8 : FVec F S128x128 .f32) (main_arg9 : FVec F S128 .f32) (main_arg10 : FVec F S128x8 .f32) (main_arg11 : FVec F S8 .f32) : IVec S_ 1 :=
  let main_v0 : FVec F S100000x4 .f32 := Host.absf main_arg0
  let main_cst : FVec F S_ .f32 := constant S_ .f32 0x7F800000#32
  let main_v1 : FVec F S100000x4 .f32 := broadcastInDim S100000x4 ![] bcast_S_S100000x4 main_cst
  let main_v2 : IVec S100000x4 1 := cmpf .olt main_v0 main_v1
  let main_c : IVec S_ 1 := constantI S_ 1 1#1
  let main_v3 : IVec S_ 1 := (fun x v => Host.reduce IntOp.andi x v reducesTo_S100000x4_S_d0_1 h_S_) main_v2 main_c
  let main_v4 : FVec F S512x2 .f32 := Host.absf main_arg2
  let main_cst_0 : FVec F S_ .f32 := constant S_ .f32 0x7F800000#32
  let main_v5 : FVec F S512x2 .f32 := broadcastInDim S512x2 ![] bcast_S_S512x2 main_cst_0
  let main_v6 : IVec S512x2 1 := cmpf .olt main_v4 main_v5
  let main_c_1 : IVec S_ 1 := constantI S_ 1 1#1
  let main_v7 : IVec S_ 1 := (fun x v => Host.reduce IntOp.andi x v reducesTo_S512x2_S_d0_1 h_S_) main_v6 main_c_1
  let main_v8 : IVec S_ 1 := andi main_v3 main_v7
  let main_v9 : FVec F S6x128 .f32 := Host.absf main_arg4
  let main_cst_2 : FVec F S_ .f32 := constant S_ .f32 0x7F800000#32
  let main_v10 : FVec F S6x128 .f32 := broadcastInDim S6x128 ![] bcast_S_S6x128 main_cst_2
  let main_v11 : IVec S6x128 1 := cmpf .olt main_v9 main_v10
  let main_c_3 : IVec S_ 1 := constantI S_ 1 1#1
  let main_v12 : IVec S_ 1 := (fun x v => Host.reduce IntOp.andi x v reducesTo_S6x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_v13 main_v16
-- ==== Kernel.lean ====
abbrev S100000x4 : Shape := ⟨2, ![100000, 4]⟩
abbrev S2x1600000 : Shape := ⟨2, ![2, 1600000]⟩
abbrev S512x2 : Shape := ⟨2, ![512, 2]⟩
abbrev S100000 : Shape := ⟨1, ![100000]⟩
abbrev S6x128 : Shape := ⟨2, ![6, 128]⟩
abbrev S128 : Shape := ⟨1, ![128]⟩
abbrev S128x128 : Shape := ⟨2, ![128, 128]⟩
abbrev S128x8 : Shape := ⟨2, ![128, 8]⟩
abbrev S8 : Shape := ⟨1, ![8]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S100000x2 : Shape := ⟨2, ![100000, 2]⟩
abbrev S100000x6 : Shape := ⟨2, ![100000, 6]⟩
abbrev S100000x128 : Shape := ⟨2, ![100000, 128]⟩
abbrev S5000x6 : Shape := ⟨2, ![5000, 6]⟩
abbrev S5000x128 : Shape := ⟨2, ![5000, 128]⟩
abbrev S1700000x128 : Shape := ⟨2, ![1700000, 128]⟩
abbrev S1x128 : Shape := ⟨2, ![1, 128]⟩
abbrev S1x8 : Shape := ⟨2, ![1, 8]⟩
abbrev S100000x8 : Shape := ⟨2, ![100000, 8]⟩
abbrev S5000x8 : Shape := ⟨2, ![5000, 8]⟩

abbrev nBuf : Space → Nat
  | .hbm => 96
  | .vmem => 20
  | .smem => 0
  | _ => 0

abbrev bufTy : (tb : Table) → Fin (tcTables nBuf tb) → BufTy
  | .hbm, ⟨0, _⟩ => ⟨S100000x4, .f32⟩
  | .hbm, ⟨1, _⟩ => ⟨S2x1600000, .i32⟩
  | .hbm, ⟨2, _⟩ => ⟨S512x2, .f32⟩
  | .hbm, ⟨3, _⟩ => ⟨S100000, .i32⟩
  | .hbm, ⟨4, _⟩ => ⟨S6x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x8, .f32⟩
  | .hbm, ⟨11, _⟩ => ⟨S8, .f32⟩
  | .hbm, ⟨12, _⟩ => ⟨S100000, .i32⟩
  | .hbm, ⟨13, _⟩ => ⟨S1x1600000, .i32⟩
  | .hbm, ⟨14, _⟩ => ⟨S1600000, .i32⟩
  | .hbm, ⟨15, _⟩ => ⟨S1700000, .i32⟩
  | .hbm, ⟨16, _⟩ => ⟨S1x1600000, .i32⟩
  | .hbm, ⟨17, _⟩ => ⟨S1600000, .i32⟩
  | .hbm, ⟨18, _⟩ => ⟨S1700000, .i32⟩
  | .hbm, ⟨19, _⟩ => ⟨S_, .f32⟩
  | .hbm, ⟨20, _⟩ => ⟨S1700000, .f32⟩
  | .hbm, ⟨21, _⟩ => ⟨S_, .f32⟩
  | .hbm, ⟨22, _⟩ => ⟨S100000, .f32⟩
  | .hbm, ⟨23, _⟩ => ⟨S1700000x1, .i32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S1700000, .i32⟩
  | .hbm, ⟨28, _⟩ => ⟨S1700000, .i1⟩
  | .hbm, ⟨29, _⟩ => ⟨S_, .i32⟩
  | .hbm, ⟨30, _⟩ => ⟨S1700000, .i32⟩
  | .hbm, ⟨31, _⟩ => ⟨S1700000, .i32⟩
  | .hbm, ⟨32, _⟩ => ⟨S1700000, .i32⟩
  | .hbm, ⟨33, _⟩ => ⟨S1700000x1, .i32⟩
  | .hbm, ⟨34, _⟩ => ⟨S1700000, .f32⟩
  | .hbm, ⟨35, _⟩ => ⟨S_, .i32⟩
  | .hbm, ⟨36, _⟩ => ⟨S1700000, .i32⟩
  | .hbm, ⟨37, _⟩ => ⟨S1700000, .i1⟩
  | .hbm, ⟨38, _⟩ => ⟨S_, .i32⟩
  | .hbm, ⟨39, _⟩ => ⟨S1700000, .i32⟩
  | .hbm, ⟨40, _⟩ => ⟨S1700000, .i32⟩
  | .hbm, ⟨41, _⟩ => ⟨S1700000, .i32⟩
  | .hbm, ⟨42, _⟩ => ⟨S1700000x1, .i32⟩
  | .hbm, ⟨43, _⟩ => ⟨S1700000, .f32⟩
  | .hbm, ⟨44, _⟩ => ⟨S1700000, .f32⟩
  | .hbm, ⟨45, _⟩ => ⟨S_, .i32⟩
  | .hbm, ⟨46, _⟩ => ⟨S100000, .i32⟩
  | .hbm, ⟨47, _⟩ => ⟨S100000, .i1⟩
  | .hbm, ⟨48, _⟩ => ⟨S_, .i32⟩
  | .hbm, ⟨49, _⟩ => ⟨S100000, .i32⟩
  | .hbm, ⟨50, _⟩ => ⟨S100000, .i32⟩
  | .hbm, ⟨51, _⟩ => ⟨S100000, .i32⟩
  | .hbm, ⟨52, _⟩ => ⟨S100000x1, .i32⟩
  | .hbm, ⟨53, _⟩ => ⟨S100000x2, .f32⟩
  | .hbm, ⟨54, _⟩ => ⟨S100000x6, .f32⟩
  | .hbm, ⟨55, _⟩ => ⟨S100000x128, .f32⟩
  | .hbm, ⟨56, _⟩ => ⟨S_, .i32⟩
  | .hbm, ⟨57, _⟩ => ⟨S1700000, .i32⟩
  | .hbm, ⟨58, _⟩ => ⟨S1700000, .i1⟩
  | .hbm, ⟨59, _⟩ => ⟨S_, .i32⟩
  | .hbm, ⟨60, _⟩ => ⟨S1700000, .i32⟩
  | .hbm, ⟨61, _⟩ => ⟨S1700000, .i32⟩
  | .hbm, ⟨62, _⟩ => ⟨S1700000, .i32⟩
  | .hbm, ⟨63, _⟩ => ⟨S1700000x1, .i32⟩
  | .hbm, ⟨64, _⟩ => ⟨S1700000x128, .f32⟩
  | .hbm, ⟨65, _⟩ => ⟨S1700000x1, .f32⟩
  | .hbm, ⟨66, _⟩ => ⟨S1700000x128, .f32⟩
  | .hbm, ⟨67, _⟩ => ⟨S1700000x128, .f32⟩
  | .hbm, ⟨68, _⟩ => ⟨S_, .f32⟩
  | .hbm, ⟨69, _⟩ => ⟨S100000x128, .f32⟩
  | .hbm, ⟨70, _⟩ => ⟨S1700000x1, .i32⟩
  | .hbm, ⟨71, _⟩ => ⟨S100000x128, .f32⟩
  | .hbm, ⟨72, _⟩ => ⟨S1x128, .f32⟩
  | .hbm, ⟨73, _⟩ => ⟨S100000x128, .f32⟩
  | .hbm, ⟨74, _⟩ => ⟨S_, .i32⟩
  | .hbm, ⟨75, _⟩ => ⟨S1700000, .i32⟩
  | .hbm, ⟨76, _⟩ => ⟨S1700000, .i1⟩
  | .hbm, ⟨77, _⟩ => ⟨S_, .i32⟩
  | .hbm, ⟨78, _⟩ => ⟨S1700000, .i32⟩
  | .hbm, ⟨79, _⟩ => ⟨S1700000, .i32⟩
  | .hbm, ⟨80, _⟩ => ⟨S1700000, .i32⟩
  | .hbm, ⟨81, _⟩ => ⟨S1700000x1, .i32⟩
  | .hbm, ⟨82, _⟩ => ⟨S1700000x128, .f32⟩
  | .hbm, ⟨83, _⟩ => ⟨S1700000x1, .f32⟩
  | .hbm, ⟨84, _⟩ => ⟨S1700000x128, .f32⟩
  | .hbm, ⟨85, _⟩ => ⟨S1700000x128, .f32⟩
  | .hbm, ⟨86, _⟩ => ⟨S_, .f32⟩
  | .hbm, ⟨87, _⟩ => ⟨S100000x128, .f32⟩
  | .hbm, ⟨88, _⟩ => ⟨S1700000x1, .i32⟩
  | .hbm, ⟨89, _⟩ => ⟨S100000x128, .f32⟩
  | .hbm, ⟨90, _⟩ => ⟨S1x128, .f32⟩
  | .hbm, ⟨91, _⟩ => ⟨S1x128, .f32⟩
  | .hbm, ⟨92, _⟩ => ⟨S1x8, .f32⟩
  | .hbm, ⟨93, _⟩ => ⟨S100000x8, .f32⟩
  | .hbm, ⟨94, _⟩ => ⟨S100000x4, .f32⟩
  | .hbm, ⟨95, _⟩ => ⟨S100000x4, .f32⟩
  | .local _ .vmem, ⟨0, _⟩ => ⟨S5000x6, .f32⟩
  | .local _ .vmem, ⟨1, _⟩ => ⟨S5000x6, .f32⟩
  | .local _ .vmem, ⟨2, _⟩ => ⟨S6x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S128x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S1x128, .f32⟩
  | .local _ .vmem, ⟨14, _⟩ => ⟨S128x128, .f32⟩
  | .local _ .vmem, ⟨15, _⟩ => ⟨S1x128, .f32⟩
  | .local _ .vmem, ⟨16, _⟩ => ⟨S128x8, .f32⟩
  | .local _ .vmem, ⟨17, _⟩ => ⟨S1x8, .f32⟩
  | .local _ .vmem, ⟨18, _⟩ => ⟨S5000x8, .f32⟩
  | .local _ .vmem, ⟨19, _⟩ => ⟨S5000x8, .f32⟩
  | _, _ => ⟨S100000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_1 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_2 : Ref sig .tc := ⟨.hbm, 35, rfl⟩
abbrev main_v19 : Ref sig .tc := ⟨.hbm, 36, rfl⟩
abbrev main_v20 : Ref sig .tc := ⟨.hbm, 37, rfl⟩
abbrev main_c_3 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_4 : Ref sig .tc := ⟨.hbm, 45, rfl⟩
abbrev main_v27 : Ref sig .tc := ⟨.hbm, 46, rfl⟩
abbrev main_v28 : Ref sig .tc := ⟨.hbm, 47, rfl⟩
abbrev main_c_5 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_c_6 : Ref sig .tc := ⟨.hbm, 56, rfl⟩
abbrev main_v36 : Ref sig .tc := ⟨.hbm, 57, rfl⟩
abbrev main_v37 : Ref sig .tc := ⟨.hbm, 58, rfl⟩
abbrev main_c_7 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_8 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_c_9 : Ref sig .tc := ⟨.hbm, 74, rfl⟩
abbrev main_v51 : Ref sig .tc := ⟨.hbm, 75, rfl⟩
abbrev main_v52 : Ref sig .tc := ⟨.hbm, 76, rfl⟩
abbrev main_c_10 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_11 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg5_0 : Ref sig .tc := ⟨.vmem, 17, rfl⟩
abbrev cc2_stg6_0 : Ref sig .tc := ⟨.vmem, 18, rfl⟩
abbrev cc2_stg6_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem5_0 : DmaSem sig := 17
abbrev cc2_sem6_0 : DmaSem sig := 18
abbrev cc2_sem6_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x6 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x8 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x8 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x8 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S100000_S100000x1_0 : S100000.BroadcastsInDim S100000x1 (![0] : Fin 1 → Fin S100000x1.rank)
  concatenates_S100000x4_S100000x2_S100000x6_d1 : Shape.Concatenates [S100000x4, S100000x2] S100000x6 1
  inb_S5000x6_S5000x6_0_0 : ∀ a, (![0, 0] : Fin 2 → Nat) a + S5000x6.size a ≤ S5000x6.size a
  h_S5000x6 : 0 < S5000x6.numel
  shapeCasts_S5000x6_S5000x6 : S5000x6.ShapeCasts S5000x6
  bitsLt_bf16_f32 : FTy.bits .bf16 < FTy.bits .f32
  inb_S6x128_S6x128_0_0 : ∀ a, (![0, 0] : Fin 2 → Nat) a + S6x128.size a ≤ S6x128.size a
  h_S6x128 : 0 < S6x128.numel
  inb_S5000x128_S5000x128_0_0 : ∀ a, (![0, 0] : Fin 2 → Nat) a + S5000x128.size a ≤ S5000x128.size a
  h_S5000x128 : 0 < S5000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  shapeCasts_S8_S1x8 : S8.ShapeCasts S1x8
  inb_S128x8_S128x8_0_0 : ∀ a, (![0, 0] : Fin 2 → Nat) a + S128x8.size a ≤ S128x8.size a
  h_S128x8 : 0 < S128x8.numel
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S5000x8 : S1x8.Broadcasts S5000x8
  inb_S5000x8_S5000x8_0_0 : ∀ a, (![0, 0] : Fin 2 → Nat) a + S5000x8.size a ≤ S5000x8.size a
  h_S5000x8 : 0 < S5000x8.numel
  slices_S100000x8_S100000x4_0_0 : S100000x8.Slices ![0, 0] S100000x4
  slices_S100000x8_S100000x4_0_4 : S100000x8.Slices ![0, 4] S100000x4
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S512x2_S100000x1_S100000x2_1_0_n_n_0_1_12_wf : GatherDims.WF S512x2 S100000x1 S100000x2 [1] [0] [] [0] [] 1 ![1, 2]
  dot_S5000x6_S6x128_S5000x128_1_0_0_1_n_n_wf : DotDims.WF S5000x6 S6x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x128_S5000x128_1_0_0_1_n_n_wf : DotDims.WF S5000x128 S128x128 S5000x128 [1] [0] [0] [1] [] []
  dot_S5000x128_S128x8_S5000x8_1_0_0_1_n_n_wf : DotDims.WF S5000x128 S128x8 S5000x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x6.size a ≤ S100000x6.size a
  hwx0_0 : ∀ i : grid0.Coords, EltTy.bits .f32 = 32 ∨ (Rect.block (s := S100000x6) S5000x6.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S6x128.size a ≤ S6x128.size a
  hwx0_1 : ∀ i : grid0.Coords, EltTy.bits .f32 = 32 ∨ (Rect.block (s := S6x128) S6x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x8.size a ≤ S128x8.size a
  hwx2_4 : ∀ i : grid2.Coords, EltTy.bits .f32 = 32 ∨ (Rect.block (s := S128x8) S128x8.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x8.size a ≤ S1x8.size a
  hwx2_5 : ∀ i : grid2.Coords, EltTy.bits .f32 = 32 ∨ (Rect.block (s := S1x8) S1x8.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x8.size a ≤ S100000x8.size a
  hwx2_6 : ∀ i : grid2.Coords, EltTy.bits .f32 = 32 ∨ (Rect.block (s := S100000x8) S5000x8.size (cc2_transform_6 i) (hinb2_6 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S512x2_S100000x1_S100000x2_1_0_n_n_0_1_12 : GatherDims S512x2 S100000x1 S100000x2 where
  offsetDims := [1]
  collapsedSliceDims := [0]
  operandBatchingDims := []
  startIndicesBatchingDims := []
  startIndexMap := [0]
  indexVectorDim := 1
  sliceSizes := ![1, 2]
  wf := gather_S512x2_S100000x1_S100000x2_1_0_n_n_0_1_12_wf
def dot_S5000x6_S6x128_S5000x128_1_0_0_1_n_n : DotDims S5000x6 S6x128 S5000x128 where
  lhsContracting := [1]
  rhsContracting := [0]
  lhsNonContracting := [0]
  rhsNonContracting := [1]
  lhsBatch := []
  rhsBatch := []
  wf := dot_S5000x6_S6x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x8_S5000x8_1_0_0_1_n_n : DotDims S5000x128 S128x8 S5000x8 where
  lhsContracting := [1]
  rhsContracting := [0]
  lhsNonContracting := [0]
  rhsNonContracting := [1]
  lhsBatch := []
  rhsBatch := []
  wf := dot_S5000x128_S128x8_S5000x8_1_0_0_1_n_n_wf

abbrev win0_0 : Pipeline.Window sig grid0 :=
  Pipeline.Window.ofSpec (Memref.whole main_v34) S5000x6.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S6x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v35) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v49) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v50) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v63) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v64) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v65) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S128x8.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v66) S1x8.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v67) S5000x8.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S100000x4 : Shape := ⟨2, ![100000, 4]⟩
abbrev S2x1600000 : Shape := ⟨2, ![2, 1600000]⟩
abbrev S512x2 : Shape := ⟨2, ![512, 2]⟩
abbrev S100000 : Shape := ⟨1, ![100000]⟩
abbrev S6x128 : Shape := ⟨2, ![6, 128]⟩
abbrev S128 : Shape := ⟨1, ![128]⟩
abbrev S128x128 : Shape := ⟨2, ![128, 128]⟩
abbrev S128x8 : Shape := ⟨2, ![128, 8]⟩
abbrev S8 : Shape := ⟨1, ![8]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S100000x2 : Shape := ⟨2, ![100000, 2]⟩
abbrev S100000x6 : Shape := ⟨2, ![100000, 6]⟩
abbrev S100000x128 : Shape := ⟨2, ![100000, 128]⟩
abbrev S1700000x128 : Shape := ⟨2, ![1700000, 128]⟩
abbrev S1x128 : Shape := ⟨2, ![1, 128]⟩
abbrev S100000x8 : Shape := ⟨2, ![100000, 8]⟩
abbrev S1x8 : Shape := ⟨2, ![1, 8]⟩

abbrev nBuf : Space → Nat
  | .hbm => 114
  | .vmem => 0
  | .smem => 0
  | _ => 0

abbrev bufTy : (tb : Table) → Fin (tcTables nBuf tb) → BufTy
  | .hbm, ⟨0, _⟩ => ⟨S100000x4, .f32⟩
  | .hbm, ⟨1, _⟩ => ⟨S2x1600000, .i32⟩
  | .hbm, ⟨2, _⟩ => ⟨S512x2, .f32⟩
  | .hbm, ⟨3, _⟩ => ⟨S100000, .i32⟩
  | .hbm, ⟨4, _⟩ => ⟨S6x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x8, .f32⟩
  | .hbm, ⟨11, _⟩ => ⟨S8, .f32⟩
  | .hbm, ⟨12, _⟩ => ⟨S100000, .i32⟩
  | .hbm, ⟨13, _⟩ => ⟨S1x1600000, .i32⟩
  | .hbm, ⟨14, _⟩ => ⟨S1600000, .i32⟩
  | .hbm, ⟨15, _⟩ => ⟨S1700000, .i32⟩
  | .hbm, ⟨16, _⟩ => ⟨S1x1600000, .i32⟩
  | .hbm, ⟨17, _⟩ => ⟨S1600000, .i32⟩
  | .hbm, ⟨18, _⟩ => ⟨S1700000, .i32⟩
  | .hbm, ⟨19, _⟩ => ⟨S_, .f32⟩
  | .hbm, ⟨20, _⟩ => ⟨S1700000, .f32⟩
  | .hbm, ⟨21, _⟩ => ⟨S_, .f32⟩
  | .hbm, ⟨22, _⟩ => ⟨S100000, .f32⟩
  | .hbm, ⟨23, _⟩ => ⟨S1700000x1, .i32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S1700000, .i32⟩
  | .hbm, ⟨28, _⟩ => ⟨S1700000, .i1⟩
  | .hbm, ⟨29, _⟩ => ⟨S_, .i32⟩
  | .hbm, ⟨30, _⟩ => ⟨S1700000, .i32⟩
  | .hbm, ⟨31, _⟩ => ⟨S1700000, .i32⟩
  | .hbm, ⟨32, _⟩ => ⟨S1700000, .i32⟩
  | .hbm, ⟨33, _⟩ => ⟨S1700000x1, .i32⟩
  | .hbm, ⟨34, _⟩ => ⟨S1700000, .f32⟩
  | .hbm, ⟨35, _⟩ => ⟨S_, .i32⟩
  | .hbm, ⟨36, _⟩ => ⟨S1700000, .i32⟩
  | .hbm, ⟨37, _⟩ => ⟨S1700000, .i1⟩
  | .hbm, ⟨38, _⟩ => ⟨S_, .i32⟩
  | .hbm, ⟨39, _⟩ => ⟨S1700000, .i32⟩
  | .hbm, ⟨40, _⟩ => ⟨S1700000, .i32⟩
  | .hbm, ⟨41, _⟩ => ⟨S1700000, .i32⟩
  | .hbm, ⟨42, _⟩ => ⟨S1700000x1, .i32⟩
  | .hbm, ⟨43, _⟩ => ⟨S1700000, .f32⟩
  | .hbm, ⟨44, _⟩ => ⟨S1700000, .f32⟩
  | .hbm, ⟨45, _⟩ => ⟨S_, .i32⟩
  | .hbm, ⟨46, _⟩ => ⟨S100000, .i32⟩
  | .hbm, ⟨47, _⟩ => ⟨S100000, .i1⟩
  | .hbm, ⟨48, _⟩ => ⟨S_, .i32⟩
  | .hbm, ⟨49, _⟩ => ⟨S100000, .i32⟩
  | .hbm, ⟨50, _⟩ => ⟨S100000, .i32⟩
  | .hbm, ⟨51, _⟩ => ⟨S100000, .i32⟩
  | .hbm, ⟨52, _⟩ => ⟨S100000x1, .i32⟩
  | .hbm, ⟨53, _⟩ => ⟨S100000x2, .f32⟩
  | .hbm, ⟨54, _⟩ => ⟨S100000x6, .f32⟩
  | .hbm, ⟨55, _⟩ => ⟨S100000x128, .f32⟩
  | .hbm, ⟨56, _⟩ => ⟨S_, .i32⟩
  | .hbm, ⟨57, _⟩ => ⟨S1700000, .i32⟩
  | .hbm, ⟨58, _⟩ => ⟨S1700000, .i1⟩
  | .hbm, ⟨59, _⟩ => ⟨S_, .i32⟩
  | .hbm, ⟨60, _⟩ => ⟨S1700000, .i32⟩
  | .hbm, ⟨61, _⟩ => ⟨S1700000, .i32⟩
  | .hbm, ⟨62, _⟩ => ⟨S1700000, .i32⟩
  | .hbm, ⟨63, _⟩ => ⟨S1700000x1, .i32⟩
  | .hbm, ⟨64, _⟩ => ⟨S1700000x128, .f32⟩
  | .hbm, ⟨65, _⟩ => ⟨S1700000x1, .f32⟩
  | .hbm, ⟨66, _⟩ => ⟨S1700000x128, .f32⟩
  | .hbm, ⟨67, _⟩ => ⟨S1700000x128, .f32⟩
  | .hbm, ⟨68, _⟩ => ⟨S_, .f32⟩
  | .hbm, ⟨69, _⟩ => ⟨S100000x128, .f32⟩
  | .hbm, ⟨70, _⟩ => ⟨S1700000x1, .i32⟩
  | .hbm, ⟨71, _⟩ => ⟨S100000x128, .f32⟩
  | .hbm, ⟨72, _⟩ => ⟨S1x128, .f32⟩
  | .hbm, ⟨73, _⟩ => ⟨S100000x128, .f32⟩
  | .hbm, ⟨74, _⟩ => ⟨S100000x128, .f32⟩
  | .hbm, ⟨75, _⟩ => ⟨S_, .f32⟩
  | .hbm, ⟨76, _⟩ => ⟨S100000x128, .f32⟩
  | .hbm, ⟨77, _⟩ => ⟨S100000x128, .f32⟩
  | .hbm, ⟨78, _⟩ => ⟨S100000x128, .f32⟩
  | .hbm, ⟨79, _⟩ => ⟨S_, .i32⟩
  | .hbm, ⟨80, _⟩ => ⟨S1700000, .i32⟩
  | .hbm, ⟨81, _⟩ => ⟨S1700000, .i1⟩
  | .hbm, ⟨82, _⟩ => ⟨S_, .i32⟩
  | .hbm, ⟨83, _⟩ => ⟨S1700000, .i32⟩
  | .hbm, ⟨84, _⟩ => ⟨S1700000, .i32⟩
  | .hbm, ⟨85, _⟩ => ⟨S1700000, .i32⟩
  | .hbm, ⟨86, _⟩ => ⟨S1700000x1, .i32⟩
  | .hbm, ⟨87, _⟩ => ⟨S1700000x128, .f32⟩
  | .hbm, ⟨88, _⟩ => ⟨S1700000x1, .f32⟩
  | .hbm, ⟨89, _⟩ => ⟨S1700000x128, .f32⟩
  | .hbm, ⟨90, _⟩ => ⟨S1700000x128, .f32⟩
  | .hbm, ⟨91, _⟩ => ⟨S_, .f32⟩
  | .hbm, ⟨92, _⟩ => ⟨S100000x128, .f32⟩
  | .hbm, ⟨93, _⟩ => ⟨S1700000x1, .i32⟩
  | .hbm, ⟨94, _⟩ => ⟨S100000x128, .f32⟩
  | .hbm, ⟨95, _⟩ => ⟨S1x128, .f32⟩
  | .hbm, ⟨96, _⟩ => ⟨S100000x128, .f32⟩
  | .hbm, ⟨97, _⟩ => ⟨S100000x128, .f32⟩
  | .hbm, ⟨98, _⟩ => ⟨S_, .f32⟩
  | .hbm, ⟨99, _⟩ => ⟨S100000x128, .f32⟩
  | .hbm, ⟨100, _⟩ => ⟨S100000x128, .f32⟩
  | .hbm, ⟨101, _⟩ => ⟨S100000x128, .f32⟩
  | .hbm, ⟨102, _⟩ => ⟨S1x128, .f32⟩
  | .hbm, ⟨103, _⟩ => ⟨S100000x128, .f32⟩
  | .hbm, ⟨104, _⟩ => ⟨S100000x128, .f32⟩
  | .hbm, ⟨105, _⟩ => ⟨S_, .f32⟩
  | .hbm, ⟨106, _⟩ => ⟨S100000x128, .f32⟩
  | .hbm, ⟨107, _⟩ => ⟨S100000x128, .f32⟩
  | .hbm, ⟨108, _⟩ => ⟨S100000x8, .f32⟩
  | .hbm, ⟨109, _⟩ => ⟨S1x8, .f32⟩
  | .hbm, ⟨110, _⟩ => ⟨S100000x8, .f32⟩
  | .hbm, ⟨111, _⟩ => ⟨S100000x8, .f32⟩
  | .hbm, ⟨112, _⟩ => ⟨S100000x4, .f32⟩
  | .hbm, ⟨113, _⟩ => ⟨S100000x4, .f32⟩
  | _, _ => ⟨S100000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_1 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_2 : Ref sig .tc := ⟨.hbm, 35, rfl⟩
abbrev main_v19 : Ref sig .tc := ⟨.hbm, 36, rfl⟩
abbrev main_v20 : Ref sig .tc := ⟨.hbm, 37, rfl⟩
abbrev main_c_3 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_4 : Ref sig .tc := ⟨.hbm, 45, rfl⟩
abbrev main_v27 : Ref sig .tc := ⟨.hbm, 46, rfl⟩
abbrev main_v28 : Ref sig .tc := ⟨.hbm, 47, rfl⟩
abbrev main_c_5 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_c_6 : Ref sig .tc := ⟨.hbm, 56, rfl⟩
abbrev main_v36 : Ref sig .tc := ⟨.hbm, 57, rfl⟩
abbrev main_v37 : Ref sig .tc := ⟨.hbm, 58, rfl⟩
abbrev main_c_7 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_8 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_call0_cst : Ref sig .tc := ⟨.hbm, 75, rfl⟩
abbrev main_call0_v0 : Ref sig .tc := ⟨.hbm, 76, rfl⟩
abbrev main_v52 : Ref sig .tc := ⟨.hbm, 77, rfl⟩
abbrev main_v53 : Ref sig .tc := ⟨.hbm, 78, rfl⟩
abbrev main_c_9 : Ref sig .tc := ⟨.hbm, 79, rfl⟩
abbrev main_v54 : Ref sig .tc := ⟨.hbm, 80, rfl⟩
abbrev main_v55 : Ref sig .tc := ⟨.hbm, 81, rfl⟩
abbrev main_c_10 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_11 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_call1_cst : Ref sig .tc := ⟨.hbm, 98, rfl⟩
abbrev main_call1_v0 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_call2_cst : Ref sig .tc := ⟨.hbm, 105, rfl⟩
abbrev main_call2_v0 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S100000_S100000x1_0 : S100000.BroadcastsInDim S100000x1 (![0] : Fin 1 → Fin S100000x1.rank)
  concatenates_S100000x4_S100000x2_S100000x6_d1 : Shape.Concatenates [S100000x4, S100000x2] S100000x6 1
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  slices_S100000x8_S100000x4_0_0 : S100000x8.Slices ![0, 0] S100000x4
  slices_S100000x8_S100000x4_0_4 : S100000x8.Slices ![0, 4] S100000x4
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S512x2_S100000x1_S100000x2_1_0_n_n_0_1_12_wf : GatherDims.WF S512x2 S100000x1 S100000x2 [1] [0] [] [0] [] 1 ![1, 2]
  dot_S100000x6_S6x128_S100000x128_1_0_0_1_n_n_wf : DotDims.WF S100000x6 S6x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x128_S100000x128_1_0_0_1_n_n_wf : DotDims.WF S100000x128 S128x128 S100000x128 [1] [0] [0] [1] [] []
  dot_S100000x128_S128x8_S100000x8_1_0_0_1_n_n_wf : DotDims.WF S100000x128 S128x8 S100000x8 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S512x2_S100000x1_S100000x2_1_0_n_n_0_1_12 : GatherDims S512x2 S100000x1 S100000x2 where
  offsetDims := [1]
  collapsedSliceDims := [0]
  operandBatchingDims := []
  startIndicesBatchingDims := []
  startIndexMap := [0]
  indexVectorDim := 1
  sliceSizes := ![1, 2]
  wf := gather_S512x2_S100000x1_S100000x2_1_0_n_n_0_1_12_wf
def dot_S100000x6_S6x128_S100000x128_1_0_0_1_n_n : DotDims S100000x6 S6x128 S100000x128 where
  lhsContracting := [1]
  rhsContracting := [0]
  lhsNonContracting := [0]
  rhsNonContracting := [1]
  lhsBatch := []
  rhsBatch := []
  wf := dot_S100000x6_S6x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x8_S100000x8_1_0_0_1_n_n : DotDims S100000x128 S128x8 S100000x8 where
  lhsContracting := [1]
  rhsContracting := [0]
  lhsNonContracting := [0]
  rhsNonContracting := [1]
  lhsBatch := []
  rhsBatch := []
  wf := dot_S100000x128_S128x8_S100000x8_1_0_0_1_n_n_wf

class Facts : Prop extends Facts₀ where

variable [Facts]
-- ==== Proof.KernelRun.lean ====
/-
  The idealized kernel's run with its buffers named.

  The program is seven segments: a stretch of host operations, a pallas_call, a stretch, a pallas_call, a stretch, a
  pallas_call, and a last stretch.  The contents of every buffer that outlives the calls are known at each boundary as a
  fold from the launch memory, and the run ends with every such buffer at the last boundary's contents.  The frame
  claim keeps of this only the argument arrays; here the whole final valuation is kept, so that the two result arrays
  can be read.
-/
import proofs.«179961_j85727547228372_1_alg».proof.Proof.Gen.KernelIdeal.Frame

set_option maxRecDepth 16384

noncomputable section

namespace Cert.KernelIdeal.Results

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, and every buffer that is not scoped to a call ends at the
    last boundary's contents. -/
theorem run_buffers : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

/-- A buffer of @main that no call scopes is among those the run's last state names. -/
theorem final_at {r : PUnit × MemSt nD τ sig (Elt F)} (h : ∀ c : Dev nD, ∀ b ∈ Pipeline.ucRefs τ sig,
      r.2.mem (((c : Thread nD τ)).1, b) = W7 m ρ c b) (c : Dev nD) (b : Ref sig .tc)
    (hb : ¬ (Proc.devRef .tc b : DevRef τ sig).isScoped) :
    r.2.mem ((c.tc : Thread nD τ).loc b) = W7 m ρ c (Proc.devRef .tc b) :=
  h c _ (mem_uc b hb)

end Cert.KernelIdeal.Results

end
-- ==== Proof.Host0.lean ====
/-
  The first stretch of host operations, read at the buffers the rest of the program uses.

  Before the first pallas_call the program builds, from the edge list, the source and destination index vectors (the edges
  followed by one self loop per node) and the symmetric normalisation weight of every edge, and from the node features and
  the per-graph conditioning the input matrix of the first layer.  The reference program begins with the same operations
  in the same order, so each of these buffers holds the reference's value of the same name; the weight matrices and the
  bias vectors are untouched.
-/
import proofs.«179961_j85727547228372_1_alg».proof.Proof.Gen.KernelIdeal.Frame
import proofs.«179961_j85727547228372_1_alg».proof.Proof.Gen.ReferenceIdeal.Read

set_option maxRecDepth 16384

noncomputable section

namespace Cert.KernelIdeal.Host0

open Cert.KernelIdeal Cert.KernelIdeal.Gen
open Idealize.ShloMosaic Idealize.ShloMosaic.TcCoe Idealize.SL.Sem Idealize.ShloMosaic.StableHlo
open Cert.ReferenceIdeal.Read (val_main_v3 val_main_v6 val_main_v26 val_main_v34)

variable (m : (ℓ : Loc nD τ sig) → Buf (Elt Ideal) ℓ) (ρ : Dev nD → PrngReg) (c : Dev nD)

/-- The source index of every edge, self loops appended. -/
theorem src_entry : W1 m ρ c (Proc.devRef .tc main_v3) = val_main_v3 (F := Ideal) (m ((c : Thread nD τ).loc main_arg1)) := by
  dsimp only [W1, hostOps0]
  after_results_simp <;> rfl

/-- The destination index of every edge, self loops appended. -/
theorem dst_entry : W1 m ρ c (Proc.devRef .tc main_v6) = val_main_v6 (F := Ideal) (m ((c : Thread nD τ).loc main_arg1)) := by
  dsimp only [W1, hostOps0]
  after_results_simp <;> rfl

/-- The normalisation weight of every edge: the inverse square roots of the two endpoint degrees multiplied. -/
theorem norm_entry : W1 m ρ c (Proc.devRef .tc main_v26) = val_main_v26 (F := Ideal) (m ((c : Thread nD τ).loc main_arg1)) := by
  dsimp only [W1, hostOps0]
  after_results_simp <;> rfl

/-- The first layer's input: the node features beside the conditioning row of each node's graph. -/
theorem input_entry : W1 m ρ c (Proc.devRef .tc main_v34)
    = val_main_v34 (F := Ideal) (m ((c : Thread nD τ).loc main_arg0)) (m ((c : Thread nD τ).loc main_arg2))
        (m ((c : Thread nD τ).loc main_arg3)) := by
  dsimp only [W1, hostOps0]
  after_results_simp <;> rfl

/-! The weight matrices and bias vectors are not written by the first stretch. -/

theorem arg4_entry : W1 m ρ c (Proc.devRef .tc main_arg4) = m ((c : Thread nD τ).loc main_arg4) := by
  dsimp only [W1, hostOps0]
  after_results_simp <;> rfl

theorem arg5_entry : W1 m ρ c (Proc.devRef .tc main_arg5) = m ((c : Thread nD τ).loc main_arg5) := by
  dsimp only [W1, hostOps0]
  after_results_simp <;> rfl

theorem arg6_entry : W1 m ρ c (Proc.devRef .tc main_arg6) = m ((c : Thread nD τ).loc main_arg6) := by
  dsimp only [W1, hostOps0]
  after_results_simp <;> rfl

theorem arg7_entry : W1 m ρ c (Proc.devRef .tc main_arg7) = m ((c : Thread nD τ).loc main_arg7) := by
  dsimp only [W1, hostOps0]
  after_results_simp <;> rfl

theorem arg8_entry : W1 m ρ c (Proc.devRef .tc main_arg8) = m ((c : Thread nD τ).loc main_arg8) := by
  dsimp only [W1, hostOps0]
  after_results_simp <;> rfl

theorem arg9_entry : W1 m ρ c (Proc.devRef .tc main_arg9) = m ((c : Thread nD τ).loc main_arg9) := by
  dsimp only [W1, hostOps0]
  after_results_simp <;> rfl

theorem arg10_entry : W1 m ρ c (Proc.devRef .tc main_arg10) = m ((c : Thread nD τ).loc main_arg10) := by
  dsimp only [W1, hostOps0]
  after_results_simp <;> rfl

theorem arg11_entry : W1 m ρ c (Proc.devRef .tc main_arg11) = m ((c : Thread nD τ).loc main_arg11) := by
  dsimp only [W1, hostOps0]
  after_results_simp <;> rfl

end Cert.KernelIdeal.Host0

end
-- ==== Proof.LibDense.lean ====
/-
  Dense layers on the extended reals, index by index.

  A matrix product with one contracted axis, however the contraction's index type is presented, is at entry (p, q)
  the sum over k of x(p, k) · w(k, q).  This file fixes that reading for the plain two-dimensional product
  [M, K] × [K, N] → [M, N] (left axis 1 against right axis 0), both for the matrix unit's product into a zero
  accumulator and for the host's general dot product, and adds the bias row and the activation:
    dense x w b (p, q)     = (∑ k, x(p, k) · w(k, q)) + b(q)
  No finiteness is needed anywhere: only the definitions of the operations and a re-indexing of the sum.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout

noncomputable section

namespace Cert.Lib.Dense

open Idealize.ShloMosaic Idealize.ShloMosaic.ValueIdx
open scoped BigOperators

/-- Row `p` of `x` against column `q` of `w`. -/
def rowDot {M K N : ℕ} (x : (⟨2, ![M, K]⟩ : Shape).Idx → EReal) (w : (⟨2, ![K, N]⟩ : Shape).Idx → EReal)
    (p : Fin M) (q : Fin N) : EReal :=
  ∑ k : Fin K, x (ix2 p k) * w (ix2 k q)

/-- A contraction over one axis is the sum over that axis's coordinate. -/
theorem contr_sum {sl sr so : Shape} (D : DotDims sl sr so) (K : ℕ) (hr : D.contr.rank = 1)
    (hs : D.contr.size ⟨0, by omega⟩ = K) (f : sl.Idx → EReal) (g : sr.Idx → EReal) (j : so.Idx)
    (L : Fin K → sl.Idx) (R : Fin K → sr.Idx)
    (hL : ∀ k, D.lhsIdx j ((contrEquiv1 D K hr hs).symm k) = L k)
    (hR : ∀ k, D.rhsIdx j ((contrEquiv1 D K hr hs).symm k) = R k) :
    ∑ k : D.contr.Idx, f (D.lhsIdx j k) * g (D.rhsIdx j k) = ∑ k : Fin K, f (L k) * g (R k) := by
  rw [← Equiv.sum_comp (contrEquiv1 D K hr hs).symm]
  exact Finset.sum_congr rfl fun k _ => by rw [hL k, hR k]

section Plain

variable {M K N : ℕ} (D : DotDims ⟨2, ![M, K]⟩ ⟨2, ![K, N]⟩ ⟨2, ![M, N]⟩)
  (hlc : D.lhsContracting = [1]) (hrc : D.rhsContracting = [0])
  (hln : D.lhsNonContracting = [0]) (hrn : D.rhsNonContracting = [1])
  (hlb : D.lhsBatch = []) (hrb : D.rhsBatch = [])

include hlc in
theorem plain_rank : D.contr.rank = 1 := by rw [D.rank_contr, hlc]; rfl

include hlc in
theorem plain_size : D.contr.size ⟨0, by rw [plain_rank D hlc]; exact Nat.one_pos⟩ = K := by
  have := D.size_contr 0 (by rw [hlc]; exact Nat.one_pos)
  rw [this]
  simp [hlc]

include hln hlb in
/-- The left operand's free coordinate is the result's row. -/
theorem plain_lhs0 (j : (⟨2, ![M, N]⟩ : Shape).Idx) (k : D.contr.Idx) : (D.lhsIdx j k 0).val = (j 0).val := by
  have hb : (0 : Fin 2) ∉ D.lhsBatch := by rw [hlb]; simp
  have hn : (0 : Fin 2) ∈ D.lhsNonContracting := by rw [hln]; simp
  unfold DotDims.lhsIdx
  rw [dif_neg hb, dif_pos hn]
  simp only [Fin.val_cast]
  have key : ∀ (p q : Nat) (hp : p < (⟨2, ![M, N]⟩ : Shape).rank) (hq : q < (⟨2, ![M, N]⟩ : Shape).rank), p = q → (j ⟨p, hp⟩).val = (j ⟨q, hq⟩).val :=
    fun p q hp hq h => by subst h; rfl
  exact key _ _ _ _ (by simp [hlb, hln])

include hrn hrb hln hlb in
/-- The right operand's free coordinate is the result's column. -/
theorem plain_rhs1 (j : (⟨2, ![M, N]⟩ : Shape).Idx) (k : D.contr.Idx) : (D.rhsIdx j k 1).val = (j 1).val := by
  have hb : (1 : Fin 2) ∉ D.rhsBatch := by rw [hrb]; simp
  have hn : (1 : Fin 2) ∈ D.rhsNonContracting := by rw [hrn]; simp
  unfold DotDims.rhsIdx
  rw [dif_neg hb, dif_pos hn]
  simp only [Fin.val_cast]
  have key : ∀ (p q : Nat) (hp : p < (⟨2, ![M, N]⟩ : Shape).rank) (hq : q < (⟨2, ![M, N]⟩ : Shape).rank), p = q → (j ⟨p, hp⟩).val = (j ⟨q, hq⟩).val :=
    fun p q hp hq h => by subst h; rfl
  exact key _ _ _ _ (by simp [hlb, hln, hrn])

include hlc hrc hln hrn hlb hrb in
/-- The contraction of a plain product at entry `(p, q)` is the row of `x` against the column of `w`. -/
theorem plain_sum (f : (⟨2, ![M, K]⟩ : Shape).Idx → EReal) (g : (⟨2, ![K, N]⟩ : Shape).Idx → EReal) (p : Fin M) (q : Fin N) :
    ∑ k : D.contr.Idx, f (D.lhsIdx (ix2 p q) k) * g (D.rhsIdx (ix2 p q) k) = rowDot f g p q := by
  refine contr_sum D K (plain_rank D hlc) (plain_size D hlc) f g (ix2 p q) (fun k => ix2 p k) (fun k => ix2 k q) (fun k => ?_) (fun k => ?_)
  · funext a; apply Fin.ext
    match a with
    | ⟨0, _⟩ => exact plain_lhs0 D hln hlb (ix2 p q) _
    | ⟨1, _⟩ => exact (D.lhsIdx_val_of_single hlc (ix2 p q) _).trans (contrEquiv1_symm_val D K (plain_rank D hlc) (plain_size D hlc) k)
  · funext a; apply Fin.ext
    match a with
    | ⟨0, _⟩ => exact (D.rhsIdx_val_of_single hrc (ix2 p q) _).trans (contrEquiv1_symm_val D K (plain_rank D hlc) (plain_size D hlc) k)
    | ⟨1, _⟩ => exact plain_rhs1 D hln hrn hlb hrb (ix2 p q) _

include hlc hrc hln hrn hlb hrb in
/-- The matrix unit's product into a zero accumulator, at entry `(p, q)`. -/
theorem matmul_zero_at {φ₁ φ₂ : FTy} (x : FVec Ideal ⟨2, ![M, K]⟩ φ₁) (w : FVec Ideal ⟨2, ![K, N]⟩ φ₂) (p : Fin M) (q : Fin N) :
    matmul D none x w (constant ⟨2, ![M, N]⟩ .f32 0x00000000#32) (ix2 p q) = rowDot x w p q :=
  (Ideal.matmul_constant_zero_apply D none x w (ix2 p q)).trans (plain_sum D hlc hrc hln hrn hlb hrb x w p q)

include hlc hrc hln hrn hlb hrb in
/-- The host's general dot product, at entry `(p, q)`. -/
theorem dotGeneral_at {φ₁ φ₂ : FTy} (x : FVec Ideal ⟨2, ![M, K]⟩ φ₁) (w : FVec Ideal ⟨2, ![K, N]⟩ φ₂) (p : Fin M) (q : Fin N) :
    Host.dotGeneral D none x w (ix2 p q) = rowDot x w p q :=
  (Ideal.dotGeneral_apply D none .single x w (ix2 p q)).trans (plain_sum D hlc hrc hln hrn hlb hrb x w p q)

end Plain

/-- A dense layer as one function of whole arrays: entry `(p, q)` is `act` of row `p` of `x` against column `q` of
    `w` plus the bias row's entry `q`. -/
def dense {M K N : ℕ} (act : EReal → EReal) (x : (⟨2, ![M, K]⟩ : Shape).Idx → EReal) (w : (⟨2, ![K, N]⟩ : Shape).Idx → EReal)
    (b : (⟨2, ![1, N]⟩ : Shape).Idx → EReal) : (⟨2, ![M, N]⟩ : Shape).Idx → EReal :=
  fun i => act (rowDot x w (i 0) (i 1) + b (ix2 (0 : Fin 1) (i 1)))

theorem dense_ix2 {M K N : ℕ} (act : EReal → EReal) (x : (⟨2, ![M, K]⟩ : Shape).Idx → EReal) (w : (⟨2, ![K, N]⟩ : Shape).Idx → EReal)
    (b : (⟨2, ![1, N]⟩ : Shape).Idx → EReal) (p : Fin M) (q : Fin N) :
    dense act x w b (ix2 p q) = act (rowDot x w p q + b (ix2 (0 : Fin 1) q)) := rfl

/-- The combine step as one function of whole arrays: entry `(p, q)` is
    `tanh((a(p, q) + h(p, q) · d(p, 0)) + b(0, q))`. -/
def combine {M N : ℕ} (a h : (⟨2, ![M, N]⟩ : Shape).Idx → EReal) (d : (⟨2, ![M, 1]⟩ : Shape).Idx → EReal)
    (b : (⟨2, ![1, N]⟩ : Shape).Idx → EReal) : (⟨2, ![M, N]⟩ : Shape).Idx → EReal :=
  fun i => Ideal.tanh ((a i + h i * d (ix2 (i 0) (0 : Fin 1))) + b (ix2 (0 : Fin 1) (i 1)))

theorem combine_ix2 {M N : ℕ} (a h : (⟨2, ![M, N]⟩ : Shape).Idx → EReal) (d : (⟨2, ![M, 1]⟩ : Shape).Idx → EReal)
    (b : (⟨2, ![1, N]⟩ : Shape).Idx → EReal) (p : Fin M) (q : Fin N) :
    combine a h d b (ix2 p q)
      = Ideal.tanh ((a (ix2 p q) + h (ix2 p q) * d (ix2 p (0 : Fin 1))) + b (ix2 (0 : Fin 1) q)) := rfl

end Cert.Lib.Dense

end
-- ==== Proof.LibLayers.lean ====
/-
  The three dense stages of the network, as whole-array functions on the extended reals.

  Every stage is built from two readings: a linear map, whose entry (p, q) is the row p of the input against the
  column q of the weight matrix, and a hidden activation, whose entry (p, k) is max(a(p, k) + b(k), 0) with the bias
  given as a one-row matrix.  The zero of the maximum is the value the float zero word denotes.
  Nothing here needs the entries to be finite: the statements are identities between sums of the same terms.
-/
import proofs.«179961_j85727547228372_1_alg».proof.Proof.LibDense

noncomputable section

namespace Cert.Layers

open Idealize.ShloMosaic Idealize.ShloMosaic.ValueIdx Cert.Lib.Dense
open scoped BigOperators

/-- max(z, 0), the zero being what the f32 zero word denotes. -/
def relu (z : EReal) : EReal := max z (Ideal.ofBits .f32 0x00000000#32)

/-- The linear map: entry (p, q) is row p of x against column q of w. -/
def lin {M K N : ℕ} (x : (⟨2, ![M, K]⟩ : Shape).Idx → EReal) (w : (⟨2, ![K, N]⟩ : Shape).Idx → EReal) :
    (⟨2, ![M, N]⟩ : Shape).Idx → EReal :=
  fun i => rowDot x w (i 0) (i 1)

theorem lin_ix2 {M K N : ℕ} (x : (⟨2, ![M, K]⟩ : Shape).Idx → EReal) (w : (⟨2, ![K, N]⟩ : Shape).Idx → EReal)
    (p : Fin M) (q : Fin N) : lin x w (ix2 p q) = rowDot x w p q := rfl

/-- The hidden activation with the bias a one-row matrix: entry (p, k) is max(a(p, k) + b(0, k), 0). -/
def hiddenRow {M K : ℕ} (a : (⟨2, ![M, K]⟩ : Shape).Idx → EReal) (b : (⟨2, ![1, K]⟩ : Shape).Idx → EReal) :
    (⟨2, ![M, K]⟩ : Shape).Idx → EReal :=
  fun j => relu (a j + b (ix2 (0 : Fin 1) (j 1)))

theorem hiddenRow_ix2 {M K : ℕ} (a : (⟨2, ![M, K]⟩ : Shape).Idx → EReal) (b : (⟨2, ![1, K]⟩ : Shape).Idx → EReal)
    (p : Fin M) (k : Fin K) : hiddenRow a b (ix2 p k) = relu (a (ix2 p k) + b (ix2 (0 : Fin 1) k)) := rfl

/-- The output bias with the bias a one-row matrix: entry (p, q) is a(p, q) + b(0, q). -/
def biasedRow {M N : ℕ} (a : (⟨2, ![M, N]⟩ : Shape).Idx → EReal) (b : (⟨2, ![1, N]⟩ : Shape).Idx → EReal) :
    (⟨2, ![M, N]⟩ : Shape).Idx → EReal :=
  fun j => a j + b (ix2 (0 : Fin 1) (j 1))

theorem biasedRow_ix2 {M N : ℕ} (a : (⟨2, ![M, N]⟩ : Shape).Idx → EReal) (b : (⟨2, ![1, N]⟩ : Shape).Idx → EReal)
    (p : Fin M) (q : Fin N) : biasedRow a b (ix2 p q) = a (ix2 p q) + b (ix2 (0 : Fin 1) q) := rfl

/-- A vector read as a one-row matrix: entry (0, k) is b(k). -/
def row {K : ℕ} (b : (⟨1, ![K]⟩ : Shape).Idx → EReal) : (⟨2, ![1, K]⟩ : Shape).Idx → EReal :=
  fun j => b (ix1 (j 1))

theorem row_ix2 {K : ℕ} (b : (⟨1, ![K]⟩ : Shape).Idx → EReal) (z : Fin 1) (k : Fin K) : row b (ix2 z k) = b (ix1 k) := rfl

/-- Rows of a block against a matrix: when row p of the block is row r of the whole array and the weight blocks
    agree on column q, so do the products with that column. -/
theorem rowDot_rows {m M K N : ℕ} (xb : (⟨2, ![m, K]⟩ : Shape).Idx → EReal) (X : (⟨2, ![M, K]⟩ : Shape).Idx → EReal)
    (wb W : (⟨2, ![K, N]⟩ : Shape).Idx → EReal) (p : Fin m) (r : Fin M) (q : Fin N)
    (hx : ∀ k : Fin K, xb (ix2 p k) = X (ix2 r k)) (hw : ∀ k : Fin K, wb (ix2 k q) = W (ix2 k q)) :
    rowDot xb wb p q = rowDot X W r q :=
  Finset.sum_congr rfl fun k _ => by rw [hx k, hw k]

end Cert.Layers

end
-- ==== Proof.Host1.lean ====
/-
  The second stretch of host operations: the first graph aggregation.

  Between the first and the second pallas_call the program gathers, for every edge, the transformed features of the
  edge's source node, scales them by the edge's weight, and adds them into the row of the edge's destination node; it
  also casts the first bias vector to a one-row matrix.  The reference performs the same gather, scaling and
  scatter-add on its own first-stage output, so when the first call's output is the reference's first stage the
  aggregated array is the reference's aggregated array.
-/
import proofs.«179961_j85727547228372_1_alg».proof.Proof.Gen.KernelIdeal.Frame
import proofs.«179961_j85727547228372_1_alg».proof.Proof.Gen.ReferenceIdeal.Read
import proofs.«179961_j85727547228372_1_alg».proof.Proof.LibLayers
import Idealize.ShloMosaic.Lib.ValueLayout

set_option maxRecDepth 16384

noncomputable section

namespace Cert.KernelIdeal.Host1

open Cert.KernelIdeal Cert.KernelIdeal.Gen Cert.Layers
open Idealize.ShloMosaic Idealize.ShloMosaic.TcCoe Idealize.ShloMosaic.ValueIdx Idealize.SL.Sem Idealize.ShloMosaic.StableHlo
open Cert.ReferenceIdeal.Read (val_main_v3 val_main_v6 val_main_v26 val_main_v35 val_main_v48)

variable (m : (ℓ : Loc nD τ sig) → Buf (Elt Ideal) ℓ) (ρ : Dev nD → PrngReg) (c : Dev nD)

set_option quotPrecheck false in
local notation "X" k => m ((c : Thread nD τ).loc k)

/-- The first aggregation of the kernel program is the reference's, given that what it reads is. -/
theorem aggregated
    (h35 : W2 m ρ c (Proc.devRef .tc main_v35) = val_main_v35 (F := Ideal) (X main_arg0) (X main_arg2) (X main_arg3) (X main_arg4))
    (h3 : W2 m ρ c (Proc.devRef .tc main_v3) = val_main_v3 (F := Ideal) (X main_arg1))
    (h6 : W2 m ρ c (Proc.devRef .tc main_v6) = val_main_v6 (F := Ideal) (X main_arg1))
    (h26 : W2 m ρ c (Proc.devRef .tc main_v26) = val_main_v26 (F := Ideal) (X main_arg1)) :
    W3 m ρ c (Proc.devRef .tc main_v48)
      = val_main_v48 (F := Ideal) (X main_arg0) (X main_arg1) (X main_arg2) (X main_arg3) (X main_arg4) := by
  dsimp only [W3, hostOps1]
  after_results_simp
  rw [h35, h3, h6, h26]
  rfl

/-- The first bias vector cast to a one-row matrix. -/
theorem bias_row (h : W2 m ρ c (Proc.devRef .tc main_arg5) = X main_arg5) :
    (W3 m ρ c (Proc.devRef .tc main_v49) : S1x128.Idx → EReal) = row (X main_arg5) := by
  dsimp only [W3, hostOps1]
  after_results_simp
  rw [h]
  funext j
  obtain ⟨z, k, rfl⟩ : ∃ (z : Fin 1) (k : Fin 128), j = ix2 z k := ⟨j 0, j 1, eq_ix2 j⟩
  exact shapeCast_a_1a_apply _ _ z k

/-! The buffers the later segments read are not written by this stretch. -/

theorem keep_main_v3 : W3 m ρ c (Proc.devRef .tc main_v3) = W2 m ρ c (Proc.devRef .tc main_v3) := by
  dsimp only [W3, hostOps1]
  after_results_simp

theorem keep_main_v6 : W3 m ρ c (Proc.devRef .tc main_v6) = W2 m ρ c (Proc.devRef .tc main_v6) := by
  dsimp only [W3, hostOps1]
  after_results_simp

theorem keep_main_v26 : W3 m ρ c (Proc.devRef .tc main_v26) = W2 m ρ c (Proc.devRef .tc main_v26) := by
  dsimp only [W3, hostOps1]
  after_results_simp

theorem keep_main_arg6 : W3 m ρ c (Proc.devRef .tc main_arg6) = W2 m ρ c (Proc.devRef .tc main_arg6) := by
  dsimp only [W3, hostOps1]
  after_results_simp

theorem keep_main_arg7 : W3 m ρ c (Proc.devRef .tc main_arg7) = W2 m ρ c (Proc.devRef .tc main_arg7) := by
  dsimp only [W3, hostOps1]
  after_results_simp

theorem keep_main_arg8 : W3 m ρ c (Proc.devRef .tc main_arg8) = W2 m ρ c (Proc.devRef .tc main_arg8) := by
  dsimp only [W3, hostOps1]
  after_results_simp

theorem keep_main_arg9 : W3 m ρ c (Proc.devRef .tc main_arg9) = W2 m ρ c (Proc.devRef .tc main_arg9) := by
  dsimp only [W3, hostOps1]
  after_results_simp

theorem keep_main_arg10 : W3 m ρ c (Proc.devRef .tc main_arg10) = W2 m ρ c (Proc.devRef .tc main_arg10) := by
  dsimp only [W3, hostOps1]
  after_results_simp

theorem keep_main_arg11 : W3 m ρ c (Proc.devRef .tc main_arg11) = W2 m ρ c (Proc.devRef .tc main_arg11) := by
  dsimp only [W3, hostOps1]
  after_results_simp

end Cert.KernelIdeal.Host1

end
-- ==== Proof.Host2.lean ====
/-
  The third stretch of host operations: the second graph aggregation.

  Between the second and the third pallas_call the program repeats the gather, the scaling by the edge weights and the
  scatter-add on the second call's output, and casts the three remaining bias vectors to one-row matrices.  The
  reference performs the same aggregation on its own second-stage output.
-/
import proofs.«179961_j85727547228372_1_alg».proof.Proof.Gen.KernelIdeal.Frame
import proofs.«179961_j85727547228372_1_alg».proof.Proof.Gen.ReferenceIdeal.Read
import proofs.«179961_j85727547228372_1_alg».proof.Proof.LibLayers
import Idealize.ShloMosaic.Lib.ValueLayout

set_option maxRecDepth 16384

noncomputable section

namespace Cert.KernelIdeal.Host2

open Cert.KernelIdeal Cert.KernelIdeal.Gen Cert.Layers
open Idealize.ShloMosaic Idealize.ShloMosaic.TcCoe Idealize.ShloMosaic.ValueIdx Idealize.SL.Sem Idealize.ShloMosaic.StableHlo
open Cert.ReferenceIdeal.Read (val_main_v3 val_main_v6 val_main_v26 val_main_v53 val_main_v66)

variable (m : (ℓ : Loc nD τ sig) → Buf (Elt Ideal) ℓ) (ρ : Dev nD → PrngReg) (c : Dev nD)

set_option quotPrecheck false in
local notation "X" k => m ((c : Thread nD τ).loc k)

/-- The second aggregation of the kernel program is the reference's, given that what it reads is. -/
theorem aggregated
    (h50 : W4 m ρ c (Proc.devRef .tc main_v50) = val_main_v53 (F := Ideal) (X main_arg0) (X main_arg1) (X main_arg2) (X main_arg3)
      (X main_arg4) (X main_arg5) (X main_arg6))
    (h3 : W4 m ρ c (Proc.devRef .tc main_v3) = val_main_v3 (F := Ideal) (X main_arg1))
    (h6 : W4 m ρ c (Proc.devRef .tc main_v6) = val_main_v6 (F := Ideal) (X main_arg1))
    (h26 : W4 m ρ c (Proc.devRef .tc main_v26) = val_main_v26 (F := Ideal) (X main_arg1)) :
    W5 m ρ c (Proc.devRef .tc main_v63)
      = val_main_v66 (F := Ideal) (X main_arg0) (X main_arg1) (X main_arg2) (X main_arg3) (X main_arg4) (X main_arg5) (X main_arg6) := by
  dsimp only [W5, hostOps2]
  after_results_simp
  rw [h50, h3, h6, h26]
  rfl

/-- The second bias vector cast to a one-row matrix. -/
theorem bias_row1 (h : W4 m ρ c (Proc.devRef .tc main_arg7) = X main_arg7) :
    (W5 m ρ c (Proc.devRef .tc main_v64) : S1x128.Idx → EReal) = row (X main_arg7) := by
  dsimp only [W5, hostOps2]
  after_results_simp
  rw [h]
  funext j
  obtain ⟨z, k, rfl⟩ : ∃ (z : Fin 1) (k : Fin 128), j = ix2 z k := ⟨j 0, j 1, eq_ix2 j⟩
  exact shapeCast_a_1a_apply _ _ z k

/-- The third bias vector cast to a one-row matrix. -/
theorem bias_row2 (h : W4 m ρ c (Proc.devRef .tc main_arg9) = X main_arg9) :
    (W5 m ρ c (Proc.devRef .tc main_v65) : S1x128.Idx → EReal) = row (X main_arg9) := by
  dsimp only [W5, hostOps2]
  after_results_simp
  rw [h]
  funext j
  obtain ⟨z, k, rfl⟩ : ∃ (z : Fin 1) (k : Fin 128), j = ix2 z k := ⟨j 0, j 1, eq_ix2 j⟩
  exact shapeCast_a_1a_apply _ _ z k

/-- The output bias vector cast to a one-row matrix. -/
theorem bias_row3 (h : W4 m ρ c (Proc.devRef .tc main_arg11) = X main_arg11) :
    (W5 m ρ c (Proc.devRef .tc main_v66) : S1x8.Idx → EReal) = row (X main_arg11) := by
  dsimp only [W5, hostOps2]
  after_results_simp
  rw [h]
  funext j
  obtain ⟨z, k, rfl⟩ : ∃ (z : Fin 1) (k : Fin 8), j = ix2 z k := ⟨j 0, j 1, eq_ix2 j⟩
  exact shapeCast_a_1a_apply _ _ z k

/-! The weight matrices the head reads are not written by this stretch. -/

theorem keep_main_arg8 : W5 m ρ c (Proc.devRef .tc main_arg8) = W4 m ρ c (Proc.devRef .tc main_arg8) := by
  dsimp only [W5, hostOps2]
  after_results_simp

theorem keep_main_arg10 : W5 m ρ c (Proc.devRef .tc main_arg10) = W4 m ρ c (Proc.devRef .tc main_arg10) := by
  dsimp only [W5, hostOps2]
  after_results_simp

end Cert.KernelIdeal.Host2

end
-- ==== Proof.Payloads.lean ====
/-
  What each of the three kernel bodies stores, read at an entry of the block.

  On the extended reals narrowing to bf16 is the identity, a cast of a shape to itself is the identity, and a product
  accumulated from zero is the plain sum over the contracted coordinate.  So the first body's block is the linear map of
  its row block; the second's is the linear map of the hidden activation of its row block; the third's is two hidden
  stages, a linear map and the output bias, all on the same rows.
-/
import proofs.«179961_j85727547228372_1_alg».proof.Proof.Gen.KernelIdeal.Skeleton
import proofs.«179961_j85727547228372_1_alg».proof.Proof.LibLayers
import Idealize.ShloMosaic.Lib.ValueLayout

noncomputable section

namespace Cert.KernelIdeal.Pay

open Cert.KernelIdeal Cert.KernelIdeal.Gen Idealize.ShloMosaic Idealize.ShloMosaic.ValueIdx Cert.Lib.Dense Cert.Layers
open scoped BigOperators

/-- The hidden activation of a block, as the body computes it, at an entry. -/
theorem hidden_at (x0 : Vec Ideal S5000x128 .f32) (x1 : Vec Ideal S1x128 .f32) (p : Fin 5000) (k : Fin 128) :
    maximumf (F := Ideal) (addf (shapeCast S5000x128 x0 shapeCasts_S5000x128_S5000x128)
        (broadcastTo S5000x128 (shapeCast S1x128 x1 shapeCasts_S1x128_S1x128) broadcasts_S1x128_S5000x128))
      (broadcast S5000x128 (Scalar.ofBits .f32 0x00000000#32)) (ix2 p k)
      = hiddenRow x0 x1 (ix2 p k) := by
  rw [shapeCast_self x0, shapeCast_self x1]
  show max (x0 (ix2 p k) + broadcastTo S5000x128 x1 broadcasts_S1x128_S5000x128 (ix2 p k)) _ = _
  rw [broadcastTo_1b_ab_apply x1 broadcasts_S1x128_S5000x128 p k]
  rfl

/-- The first body: the linear map of the row block. -/
theorem pay0_at (x0 : Vec Ideal S5000x6 .f32) (x1 : Vec Ideal S6x128 .f32) (p : Fin 5000) (q : Fin 128) :
    k0_pay1 (F := Ideal) x0 x1 (ix2 p q) = rowDot x0 x1 p q := by
  unfold k0_pay1
  rw [shapeCast_self x0]
  exact matmul_zero_at dot_S5000x6_S6x128_S5000x128_1_0_0_1_n_n rfl rfl rfl rfl rfl rfl
    (truncf .bf16 x0 bitsLt_bf16_f32) (truncf .bf16 x1 bitsLt_bf16_f32) p q

/-- The second body: the linear map of the hidden activation of the row block. -/
theorem pay1_at (x0 : Vec Ideal S5000x128 .f32) (x1 : Vec Ideal S1x128 .f32) (x2 : Vec Ideal S128x128 .f32)
    (p : Fin 5000) (q : Fin 128) :
    k1_pay1 (F := Ideal) x0 x1 x2 (ix2 p q) = rowDot (hiddenRow x0 x1) x2 p q := by
  unfold k1_pay1
  refine (matmul_zero_at dot_S5000x128_S128x128_S5000x128_1_0_0_1_n_n rfl rfl rfl rfl rfl rfl _ _ p q).trans ?_
  unfold rowDot
  exact Finset.sum_congr rfl fun k _ => congrArg (fun z : EReal => z * x2 (ix2 k q)) (hidden_at x0 x1 p k)

/-- The third body: two hidden stages, the last linear map and the output bias. -/
theorem pay2_at (x0 : Vec Ideal S5000x128 .f32) (x1 : Vec Ideal S1x128 .f32) (x2 : Vec Ideal S128x128 .f32)
    (x3 : Vec Ideal S1x128 .f32) (x4 : Vec Ideal S128x8 .f32) (x5 : Vec Ideal S1x8 .f32) (p : Fin 5000) (q : Fin 8) :
    k2_pay1 (F := Ideal) x0 x1 x2 x3 x4 x5 (ix2 p q)
      = rowDot (hiddenRow (lin (hiddenRow x0 x1) x2) x3) x4 p q + x5 (ix2 (0 : Fin 1) q) := by
  unfold k2_pay1
  refine congrArg₂ (fun u v : EReal => u + v) ?_ ?_
  · refine (matmul_zero_at dot_S5000x128_S128x8_S5000x8_1_0_0_1_n_n rfl rfl rfl rfl rfl rfl _ _ p q).trans ?_
    unfold rowDot
    refine Finset.sum_congr rfl fun k _ => congrArg (fun z : EReal => z * x4 (ix2 k q)) ?_
    rw [shapeCast_self x3]
    show max (_ + broadcastTo S5000x128 x3 broadcasts_S1x128_S5000x128 (ix2 p k)) _ = _
    rw [broadcastTo_1b_ab_apply x3 broadcasts_S1x128_S5000x128 p k]
    show relu (_ + x3 (ix2 (0 : Fin 1) k)) = relu (lin (hiddenRow x0 x1) x2 (ix2 p k) + x3 (ix2 (0 : Fin 1) k))
    refine congrArg (fun z : EReal => relu (z + x3 (ix2 (0 : Fin 1) k))) ?_
    refine (matmul_zero_at dot_S5000x128_S128x128_S5000x128_1_0_0_1_n_n rfl rfl rfl rfl rfl rfl _ _ p k).trans ?_
    unfold rowDot
    exact Finset.sum_congr rfl fun l _ => congrArg (fun z : EReal => z * x2 (ix2 l k)) (hidden_at x0 x1 p l)
  · rw [shapeCast_self x5]
    exact broadcastTo_1b_ab_apply x5 broadcasts_S1x8_S5000x8 p q

end Cert.KernelIdeal.Pay

end
-- ==== Proof.Region0.lean ====
/-
  The first pallas_call, read as one whole-array function.

  The call tiles the 100000 rows into twenty blocks of 5000; the weight matrix is resident.  At a grid point the body
  sees rows 5000t to 5000t + 4999 of the input matrix and stores their products with the weight matrix, each row of the
  block depending only on the same row of the input.  So the block written back at point t is block t of the linear map
  of the whole input, and since the twenty blocks cover the output array, the array ends holding that linear map.
-/
import proofs.«179961_j85727547228372_1_alg».proof.Proof.Gen.KernelIdeal.Frame
import proofs.«179961_j85727547228372_1_alg».proof.Proof.Payloads

set_option maxRecDepth 16384

noncomputable section

namespace Cert.KernelIdeal.Region0

open Cert.KernelIdeal Cert.KernelIdeal.Gen Cert.KernelIdeal.Pay Cert.Lib.Dense Cert.Layers
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero_offsets : (![0, 0] : Fin 2 → Nat) = fun _ => 0 := funext fun a => by fin_cases a <;> rfl

/-- The index maps over the grid: a row-blocked window is at block (t, 0) at point t, a resident one at block (0, 0). -/
theorem index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Window 0's block at point t is rows 5000t to 5000t + 4999 of its array. -/
theorem rows_apply (c : Dev nD) (t : Fin cfg0.N) (x : S5000x6.Idx) (k : S100000x6.Idx)
    (hk0 : (k 0).val = t.val * 5000 + (x 0).val) (hk1 : (k 1).val = (x 1).val) :
    (iblk0 V c 0 t : Vec Ideal S5000x6 .f32) x = (V c main_v34 : S100000x6.Idx → EReal) k := by
  obtain ⟨e0, e1, -, -, -, -⟩ := index_maps t
  unfold iblk0
  rw [View.read_apply]
  show (V c main_v34 : S100000x6.Idx → EReal) _ = (V c main_v34 : S100000x6.Idx → EReal) _
  refine congrArg (V c main_v34 : S100000x6.Idx → EReal) ?_
  funext a
  apply Fin.ext
  match a with
  | ⟨0, _⟩ => show win0_0.index t 0 * 5000 + 1 * (x 0).val = (k 0).val; rw [e0, hk0]; omega
  | ⟨1, _⟩ => show win0_0.index t 1 * 6 + 1 * (x 1).val = (k 1).val; rw [e1, hk1]; omega

/-- Window 1's block is its whole array at every point. -/
theorem weights_apply (c : Dev nD) (t : Fin cfg0.N) (x : S6x128.Idx) :
    (iblk0 V c 1 t : Vec Ideal S6x128 .f32) x = (V c main_arg4 : S6x128.Idx → EReal) x := by
  obtain ⟨-, -, e0, e1, -, -⟩ := index_maps t
  unfold iblk0
  rw [View.read_apply]
  show (V c main_arg4 : S6x128.Idx → EReal) _ = (V c main_arg4 : S6x128.Idx → EReal) _
  refine congrArg (V c main_arg4 : S6x128.Idx → EReal) ?_
  funext a
  apply Fin.ext
  match a with
  | ⟨0, _⟩ => show win0_1.index t 0 * 6 + 1 * (x 0).val = (x 0).val; rw [e0]; omega
  | ⟨1, _⟩ => show win0_1.index t 1 * 128 + 1 * (x 1).val = (x 1).val; rw [e1]; omega

/-- The first call's output as one function of the arrays it is entered with: the linear map of the input matrix. -/
def result (c : Dev nD) : S100000x128.Idx → EReal :=
  lin (V c main_v34 : S100000x6.Idx → EReal) (V c main_arg4 : S6x128.Idx → EReal)

/-- An entry of the block the body stores at point t is the result's entry on the same row of the array. -/
theorem point_eq (c : Dev nD) (t : Fin cfg0.N) (y : S5000x128.Idx) (i : S100000x128.Idx)
    (h0 : (i 0).val = t.val * 5000 + (y 0).val) (h1 : (i 1).val = (y 1).val) :
    k0_pay1 (F := Ideal) (iblk0 V c 0 t) (iblk0 V c 1 t) y = result V c i := by
  obtain ⟨p, q, rfl⟩ : ∃ (p : Fin 5000) (q : Fin 128), y = ix2 p q := ⟨y 0, y 1, eq_ix2 y⟩
  obtain ⟨r, s, rfl⟩ : ∃ (r : Fin 100000) (s : Fin 128), i = ix2 r s := ⟨i 0, i 1, eq_ix2 i⟩
  have hr : r.val = t.val * 5000 + p.val := h0
  obtain rfl : s = q := Fin.ext h1
  refine (pay0_at (iblk0 V c 0 t) (iblk0 V c 1 t) p s).trans ?_
  show rowDot (iblk0 V c 0 t) (iblk0 V c 1 t) p s
      = rowDot (V c main_v34 : S100000x6.Idx → EReal) (V c main_arg4 : S6x128.Idx → EReal) r s
  exact rowDot_rows _ _ _ _ p r s (fun k => rows_apply V c t (ix2 p k) (ix2 r k) hr rfl)
    (fun k => weights_apply V c t (ix2 k s))

/-- What point t writes back is block t of the result. -/
theorem flushed_eq (c : Dev nD) (t : Fin cfg0.N) :
    (dat0 V c).flushed 2 t = ((cfg0.win 2).blk t).view.read (Elt Ideal) (result V c) := by
  show (cfg0.win 2).cut (grid0.coords t) ((dat0 V c).after 2 t) = _
  rw [after0_2]
  unfold out0_2
  rw [View.canon_unit_zero zero_offsets]
  simp only [View.ld_unit_zero (S := S5000x6) zero_offsets, View.ld_unit_zero (S := S6x128) zero_offsets]
  obtain ⟨-, -, -, -, e0, e1⟩ := index_maps t
  funext j
  refine point_eq V c t j _ ?_ ?_
  · show win0_2.index t 0 * 5000 + 1 * (j 0).val = t.val * 5000 + (j 0).val; rw [e0]; omega
  · show win0_2.index t 1 * 128 + 1 * (j 1).val = (j 1).val; rw [e1]; omega

/-- An index of the array is in point t's block iff each coordinate is in the block's range on its axis. -/
theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v35).slice (win0_2.rect t)).set ↔ _
  rw [View.set_slice_whole, Rect.mem_set_unit]
  exact Iff.rfl

/-- Every row of the array lies in the block of the point numbered by the row divided by 5000. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  have hlt : (i 0).val / 5000 < cfg0.N := by rw [hN]; omega
  obtain ⟨-, -, -, -, e0, e1⟩ := index_maps ⟨(i 0).val / 5000, hlt⟩
  refine ⟨⟨(i 0).val / 5000, hlt⟩, flush0_2 _, ?_⟩
  rw [mem_blk]
  intro a
  match a with
  | ⟨0, _⟩ =>
    show win0_2.index ⟨(i 0).val / 5000, hlt⟩ 0 * 5000 ≤ (i 0).val ∧ (i 0).val < win0_2.index ⟨(i 0).val / 5000, hlt⟩ 0 * 5000 + 5000
    rw [e0]
    show (i 0).val / 5000 * 5000 ≤ (i 0).val ∧ (i 0).val < (i 0).val / 5000 * 5000 + 5000
    omega
  | ⟨1, _⟩ =>
    show win0_2.index ⟨(i 0).val / 5000, hlt⟩ 1 * 128 ≤ (i 1).val ∧ (i 1).val < win0_2.index ⟨(i 0).val / 5000, hlt⟩ 1 * 128 + 128
    rw [e1]
    omega

/-- The output array after the call is the result, whatever the contents the call was entered with. -/
theorem final (c : Dev nD) : (dat0 V c).arrAt 2 cfg0.N = result V c :=
  (dat0 V c).arrAt_eq_of_cover 2 (result V c) (fun t _ => flushed_eq V c t) (fun i => cover i)

end Cert.KernelIdeal.Region0

end
-- ==== Proof.Region1.lean ====
/-
  The second pallas_call, read as one whole-array function.

  The call tiles the 100000 rows into twenty blocks of 5000; the bias row and the weight matrix are resident.  At a grid
  point the body sees rows 5000t to 5000t + 4999 of the aggregated features, and what it stores depends, row by row, only
  on that row.  So the block written back at point t is block t of one function of the whole arrays, and since the twenty
  blocks cover the output array, the array ends holding that function.
-/
import proofs.«179961_j85727547228372_1_alg».proof.Proof.Gen.KernelIdeal.Frame
import proofs.«179961_j85727547228372_1_alg».proof.Proof.Payloads

set_option maxRecDepth 16384

noncomputable section

namespace Cert.KernelIdeal.Region1

open Cert.KernelIdeal Cert.KernelIdeal.Gen Cert.KernelIdeal.Pay Cert.Lib.Dense Cert.Layers
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero_offsets : (![0, 0] : Fin 2 → Nat) = fun _ => 0 := funext fun a => by fin_cases a <;> rfl

/-- The index maps over the grid: a row-blocked window is at block (t, 0) at point t, a resident one at block (0, 0). -/
theorem index_maps : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Window 0's block at point t is rows 5000t to 5000t + 4999 of its array. -/
theorem rows_apply (c : Dev nD) (t : Fin cfg1.N) (x : S5000x128.Idx) (k : S100000x128.Idx)
    (hk0 : (k 0).val = t.val * 5000 + (x 0).val) (hk1 : (k 1).val = (x 1).val) :
    (iblk1 V c 0 t : Vec Ideal S5000x128 .f32) x = (V c main_v48 : S100000x128.Idx → EReal) k := by
  obtain ⟨e0, e1, -, -, -, -, -, -⟩ := index_maps t
  unfold iblk1
  rw [View.read_apply]
  show (V c main_v48 : S100000x128.Idx → EReal) _ = (V c main_v48 : S100000x128.Idx → EReal) _
  refine congrArg (V c main_v48 : S100000x128.Idx → EReal) ?_
  funext a
  apply Fin.ext
  match a with
  | ⟨0, _⟩ => show win1_0.index t 0 * 5000 + 1 * (x 0).val = (k 0).val; rw [e0, hk0]; omega
  | ⟨1, _⟩ => show win1_0.index t 1 * 128 + 1 * (x 1).val = (k 1).val; rw [e1, hk1]; omega

/-- Window 1's block is its whole array at every point. -/
theorem bias_apply (c : Dev nD) (t : Fin cfg1.N) (x : S1x128.Idx) :
    (iblk1 V c 1 t : Vec Ideal S1x128 .f32) x = (V c main_v49 : S1x128.Idx → EReal) x := by
  obtain ⟨-, -, e0, e1, -, -, -, -⟩ := index_maps t
  unfold iblk1
  rw [View.read_apply]
  show (V c main_v49 : S1x128.Idx → EReal) _ = (V c main_v49 : S1x128.Idx → EReal) _
  refine congrArg (V c main_v49 : S1x128.Idx → EReal) ?_
  funext a
  apply Fin.ext
  match a with
  | ⟨0, _⟩ => show win1_1.index t 0 * 1 + 1 * (x 0).val = (x 0).val; rw [e0]; omega
  | ⟨1, _⟩ => show win1_1.index t 1 * 128 + 1 * (x 1).val = (x 1).val; rw [e1]; omega

/-- Window 2's block is its whole array at every point. -/
theorem weights_apply (c : Dev nD) (t : Fin cfg1.N) (x : S128x128.Idx) :
    (iblk1 V c 2 t : Vec Ideal S128x128 .f32) x = (V c main_arg6 : S128x128.Idx → EReal) x := by
  obtain ⟨-, -, -, -, e0, e1, -, -⟩ := index_maps t
  unfold iblk1
  rw [View.read_apply]
  show (V c main_arg6 : S128x128.Idx → EReal) _ = (V c main_arg6 : S128x128.Idx → EReal) _
  refine congrArg (V c main_arg6 : S128x128.Idx → EReal) ?_
  funext a
  apply Fin.ext
  match a with
  | ⟨0, _⟩ => show win1_2.index t 0 * 128 + 1 * (x 0).val = (x 0).val; rw [e0]; omega
  | ⟨1, _⟩ => show win1_2.index t 1 * 128 + 1 * (x 1).val = (x 1).val; rw [e1]; omega

/-- The second call's output as one function of the arrays it is entered with: the linear map of the hidden activation. -/
def result (c : Dev nD) : S100000x128.Idx → EReal :=
  lin (hiddenRow (V c main_v48 : S100000x128.Idx → EReal) (V c main_v49 : S1x128.Idx → EReal)) (V c main_arg6 : S128x128.Idx → EReal)

/-- An entry of the block the body stores at point t is the result's entry on the same row of the array. -/
theorem point_eq (c : Dev nD) (t : Fin cfg1.N) (y : S5000x128.Idx) (i : S100000x128.Idx)
    (h0 : (i 0).val = t.val * 5000 + (y 0).val) (h1 : (i 1).val = (y 1).val) :
    k1_pay1 (F := Ideal) (iblk1 V c 0 t) (iblk1 V c 1 t) (iblk1 V c 2 t) y = result V c i := by
  obtain ⟨p, q, rfl⟩ : ∃ (p : Fin 5000) (q : Fin 128), y = ix2 p q := ⟨y 0, y 1, eq_ix2 y⟩
  obtain ⟨r, s, rfl⟩ : ∃ (r : Fin 100000) (s : Fin 128), i = ix2 r s := ⟨i 0, i 1, eq_ix2 i⟩
  have hr : r.val = t.val * 5000 + p.val := h0
  obtain rfl : s = q := Fin.ext h1
  refine (pay1_at (iblk1 V c 0 t) (iblk1 V c 1 t) (iblk1 V c 2 t) p s).trans ?_
  show rowDot (hiddenRow (iblk1 V c 0 t) (iblk1 V c 1 t)) (iblk1 V c 2 t) p s
      = rowDot (hiddenRow (V c main_v48 : S100000x128.Idx → EReal) (V c main_v49 : S1x128.Idx → EReal)) (V c main_arg6 : S128x128.Idx → EReal) r s
  refine rowDot_rows _ _ _ _ p r s (fun k => ?_) (fun k => weights_apply V c t (ix2 k s))
  rw [hiddenRow_ix2, hiddenRow_ix2, rows_apply V c t (ix2 p k) (ix2 r k) hr rfl, bias_apply V c t (ix2 (0 : Fin 1) k)]

/-- What point t writes back is block t of the result. -/
theorem flushed_eq (c : Dev nD) (t : Fin cfg1.N) :
    (dat1 V c).flushed 3 t = ((cfg1.win 3).blk t).view.read (Elt Ideal) (result V c) := by
  show (cfg1.win 3).cut (grid1.coords t) ((dat1 V c).after 3 t) = _
  rw [after1_3]
  unfold out1_3
  rw [View.canon_unit_zero zero_offsets]
  simp only [View.ld_unit_zero (S := S5000x128) zero_offsets, View.ld_unit_zero (S := S1x128) zero_offsets, View.ld_unit_zero (S := S128x128) zero_offsets]
  obtain ⟨-, -, -, -, -, -, e0, e1⟩ := index_maps t
  funext j
  refine point_eq V c t j _ ?_ ?_
  · show win1_3.index t 0 * 5000 + 1 * (j 0).val = t.val * 5000 + (j 0).val; rw [e0]; omega
  · show win1_3.index t 1 * 128 + 1 * (j 1).val = (j 1).val; rw [e1]; omega

/-- An index of the array is in point t's block iff each coordinate is in the block's range on its axis. -/
theorem mem_blk (t : Fin cfg1.N) (i : S100000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v50).slice (win1_3.rect t)).set ↔ _
  rw [View.set_slice_whole, Rect.mem_set_unit]
  exact Iff.rfl

/-- Every row of the array lies in the block of the point numbered by the row divided by 5000. -/
theorem cover (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  have hN : cfg1.N = 20 := N_1
  have hlt : (i 0).val / 5000 < cfg1.N := by rw [hN]; omega
  obtain ⟨-, -, -, -, -, -, e0, e1⟩ := index_maps ⟨(i 0).val / 5000, hlt⟩
  refine ⟨⟨(i 0).val / 5000, hlt⟩, flush1_3 _, ?_⟩
  rw [mem_blk]
  intro a
  match a with
  | ⟨0, _⟩ =>
    show win1_3.index ⟨(i 0).val / 5000, hlt⟩ 0 * 5000 ≤ (i 0).val ∧ (i 0).val < win1_3.index ⟨(i 0).val / 5000, hlt⟩ 0 * 5000 + 5000
    rw [e0]
    show (i 0).val / 5000 * 5000 ≤ (i 0).val ∧ (i 0).val < (i 0).val / 5000 * 5000 + 5000
    omega
  | ⟨1, _⟩ =>
    show win1_3.index ⟨(i 0).val / 5000, hlt⟩ 1 * 128 ≤ (i 1).val ∧ (i 1).val < win1_3.index ⟨(i 0).val / 5000, hlt⟩ 1 * 128 + 128
    rw [e1]
    omega

/-- The output array after the call is the result, whatever the contents the call was entered with. -/
theorem final (c : Dev nD) : (dat1 V c).arrAt 3 cfg1.N = result V c :=
  (dat1 V c).arrAt_eq_of_cover 3 (result V c) (fun t _ => flushed_eq V c t) (fun i => cover i)

end Cert.KernelIdeal.Region1

end
-- ==== Proof.Region2.lean ====
/-
  The third pallas_call, the head, read as one whole-array function.

  The call tiles the 100000 rows into twenty blocks of 5000; the three bias rows and the two weight matrices are resident.
  At a grid point the body sees rows 5000t to 5000t + 4999 of the aggregated features, and every row it stores depends only
  on the same row of that block: a hidden activation, a linear map, a second hidden activation, a second linear map and
  the output bias.  So the block written back at point t is block t of one function of the whole arrays, and since the
  twenty blocks cover the output array, the array ends holding that function.
-/
import proofs.«179961_j85727547228372_1_alg».proof.Proof.Gen.KernelIdeal.Frame
import proofs.«179961_j85727547228372_1_alg».proof.Proof.Payloads

set_option maxRecDepth 16384

noncomputable section

namespace Cert.KernelIdeal.Region2

open Cert.KernelIdeal Cert.KernelIdeal.Gen Cert.KernelIdeal.Pay Cert.Lib.Dense Cert.Layers
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero_offsets : (![0, 0] : Fin 2 → Nat) = fun _ => 0 := funext fun a => by fin_cases a <;> rfl

/-- The index maps over the grid: a row-blocked window is at block (t, 0) at point t, a resident one at block (0, 0). -/
theorem index_maps : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- Window 0's block at point t is rows 5000t to 5000t + 4999 of its array. -/
theorem rows_apply (c : Dev nD) (t : Fin cfg2.N) (x : S5000x128.Idx) (k : S100000x128.Idx)
    (hk0 : (k 0).val = t.val * 5000 + (x 0).val) (hk1 : (k 1).val = (x 1).val) :
    (iblk2 V c 0 t : Vec Ideal S5000x128 .f32) x = (V c main_v63 : S100000x128.Idx → EReal) k := by
  obtain ⟨e0, e1, -, -, -, -, -, -, -, -, -, -, -, -⟩ := index_maps t
  unfold iblk2
  rw [View.read_apply]
  show (V c main_v63 : S100000x128.Idx → EReal) _ = (V c main_v63 : S100000x128.Idx → EReal) _
  refine congrArg (V c main_v63 : S100000x128.Idx → EReal) ?_
  funext a
  apply Fin.ext
  match a with
  | ⟨0, _⟩ => show win2_0.index t 0 * 5000 + 1 * (x 0).val = (k 0).val; rw [e0, hk0]; omega
  | ⟨1, _⟩ => show win2_0.index t 1 * 128 + 1 * (x 1).val = (k 1).val; rw [e1, hk1]; omega

/-- Window 1's block is its whole array at every point. -/
theorem bias1_apply (c : Dev nD) (t : Fin cfg2.N) (x : S1x128.Idx) :
    (iblk2 V c 1 t : Vec Ideal S1x128 .f32) x = (V c main_v64 : S1x128.Idx → EReal) x := by
  obtain ⟨-, -, e0, e1, -, -, -, -, -, -, -, -, -, -⟩ := index_maps t
  unfold iblk2
  rw [View.read_apply]
  show (V c main_v64 : S1x128.Idx → EReal) _ = (V c main_v64 : S1x128.Idx → EReal) _
  refine congrArg (V c main_v64 : S1x128.Idx → EReal) ?_
  funext a
  apply Fin.ext
  match a with
  | ⟨0, _⟩ => show win2_1.index t 0 * 1 + 1 * (x 0).val = (x 0).val; rw [e0]; omega
  | ⟨1, _⟩ => show win2_1.index t 1 * 128 + 1 * (x 1).val = (x 1).val; rw [e1]; omega

/-- Window 2's block is its whole array at every point. -/
theorem weights1_apply (c : Dev nD) (t : Fin cfg2.N) (x : S128x128.Idx) :
    (iblk2 V c 2 t : Vec Ideal S128x128 .f32) x = (V c main_arg8 : S128x128.Idx → EReal) x := by
  obtain ⟨-, -, -, -, e0, e1, -, -, -, -, -, -, -, -⟩ := index_maps t
  unfold iblk2
  rw [View.read_apply]
  show (V c main_arg8 : S128x128.Idx → EReal) _ = (V c main_arg8 : S128x128.Idx → EReal) _
  refine congrArg (V c main_arg8 : S128x128.Idx → EReal) ?_
  funext a
  apply Fin.ext
  match a with
  | ⟨0, _⟩ => show win2_2.index t 0 * 128 + 1 * (x 0).val = (x 0).val; rw [e0]; omega
  | ⟨1, _⟩ => show win2_2.index t 1 * 128 + 1 * (x 1).val = (x 1).val; rw [e1]; omega

/-- Window 3's block is its whole array at every point. -/
theorem bias2_apply (c : Dev nD) (t : Fin cfg2.N) (x : S1x128.Idx) :
    (iblk2 V c 3 t : Vec Ideal S1x128 .f32) x = (V c main_v65 : S1x128.Idx → EReal) x := by
  obtain ⟨-, -, -, -, -, -, e0, e1, -, -, -, -, -, -⟩ := index_maps t
  unfold iblk2
  rw [View.read_apply]
  show (V c main_v65 : S1x128.Idx → EReal) _ = (V c main_v65 : S1x128.Idx → EReal) _
  refine congrArg (V c main_v65 : S1x128.Idx → EReal) ?_
  funext a
  apply Fin.ext
  match a with
  | ⟨0, _⟩ => show win2_3.index t 0 * 1 + 1 * (x 0).val = (x 0).val; rw [e0]; omega
  | ⟨1, _⟩ => show win2_3.index t 1 * 128 + 1 * (x 1).val = (x 1).val; rw [e1]; omega

/-- Window 4's block is its whole array at every point. -/
theorem weights2_apply (c : Dev nD) (t : Fin cfg2.N) (x : S128x8.Idx) :
    (iblk2 V c 4 t : Vec Ideal S128x8 .f32) x = (V c main_arg10 : S128x8.Idx → EReal) x := by
  obtain ⟨-, -, -, -, -, -, -, -, e0, e1, -, -, -, -⟩ := index_maps t
  unfold iblk2
  rw [View.read_apply]
  show (V c main_arg10 : S128x8.Idx → EReal) _ = (V c main_arg10 : S128x8.Idx → EReal) _
  refine congrArg (V c main_arg10 : S128x8.Idx → EReal) ?_
  funext a
  apply Fin.ext
  match a with
  | ⟨0, _⟩ => show win2_4.index t 0 * 128 + 1 * (x 0).val = (x 0).val; rw [e0]; omega
  | ⟨1, _⟩ => show win2_4.index t 1 * 8 + 1 * (x 1).val = (x 1).val; rw [e1]; omega

/-- Window 5's block is its whole array at every point. -/
theorem bias_out_apply (c : Dev nD) (t : Fin cfg2.N) (x : S1x8.Idx) :
    (iblk2 V c 5 t : Vec Ideal S1x8 .f32) x = (V c main_v66 : S1x8.Idx → EReal) x := by
  obtain ⟨-, -, -, -, -, -, -, -, -, -, e0, e1, -, -⟩ := index_maps t
  unfold iblk2
  rw [View.read_apply]
  show (V c main_v66 : S1x8.Idx → EReal) _ = (V c main_v66 : S1x8.Idx → EReal) _
  refine congrArg (V c main_v66 : S1x8.Idx → EReal) ?_
  funext a
  apply Fin.ext
  match a with
  | ⟨0, _⟩ => show win2_5.index t 0 * 1 + 1 * (x 0).val = (x 0).val; rw [e0]; omega
  | ⟨1, _⟩ => show win2_5.index t 1 * 8 + 1 * (x 1).val = (x 1).val; rw [e1]; omega

/-- The third call's output as one function of the arrays it is entered with: two hidden stages, two linear maps, the output bias. -/
def result (c : Dev nD) : S100000x8.Idx → EReal :=
  biasedRow (lin (hiddenRow (lin (hiddenRow (V c main_v63 : S100000x128.Idx → EReal) (V c main_v64 : S1x128.Idx → EReal))
      (V c main_arg8 : S128x128.Idx → EReal)) (V c main_v65 : S1x128.Idx → EReal)) (V c main_arg10 : S128x8.Idx → EReal))
    (V c main_v66 : S1x8.Idx → EReal)

/-- An entry of the block the body stores at point t is the result's entry on the same row of the array. -/
theorem point_eq (c : Dev nD) (t : Fin cfg2.N) (y : S5000x8.Idx) (i : S100000x8.Idx)
    (h0 : (i 0).val = t.val * 5000 + (y 0).val) (h1 : (i 1).val = (y 1).val) :
    k2_pay1 (F := Ideal) (iblk2 V c 0 t) (iblk2 V c 1 t) (iblk2 V c 2 t) (iblk2 V c 3 t) (iblk2 V c 4 t) (iblk2 V c 5 t) y = result V c i := by
  obtain ⟨p, q, rfl⟩ : ∃ (p : Fin 5000) (q : Fin 8), y = ix2 p q := ⟨y 0, y 1, eq_ix2 y⟩
  obtain ⟨r, s, rfl⟩ : ∃ (r : Fin 100000) (s : Fin 8), i = ix2 r s := ⟨i 0, i 1, eq_ix2 i⟩
  have hr : r.val = t.val * 5000 + p.val := h0
  obtain rfl : s = q := Fin.ext h1
  refine (pay2_at (iblk2 V c 0 t) (iblk2 V c 1 t) (iblk2 V c 2 t) (iblk2 V c 3 t) (iblk2 V c 4 t) (iblk2 V c 5 t) p s).trans ?_
  show _ + _ = rowDot (hiddenRow (lin (hiddenRow (V c main_v63 : S100000x128.Idx → EReal) (V c main_v64 : S1x128.Idx → EReal))
      (V c main_arg8 : S128x128.Idx → EReal)) (V c main_v65 : S1x128.Idx → EReal)) (V c main_arg10 : S128x8.Idx → EReal) r s
        + (V c main_v66 : S1x8.Idx → EReal) (ix2 (0 : Fin 1) s)
  refine congrArg₂ (fun u v : EReal => u + v) ?_ (bias_out_apply V c t (ix2 (0 : Fin 1) s))
  refine rowDot_rows _ _ _ _ p r s (fun k => ?_) (fun k => weights2_apply V c t (ix2 k s))
  rw [hiddenRow_ix2, hiddenRow_ix2, bias2_apply V c t (ix2 (0 : Fin 1) k)]
  refine congrArg (fun z : EReal => relu (z + (V c main_v65 : S1x128.Idx → EReal) (ix2 (0 : Fin 1) k))) ?_
  rw [lin_ix2, lin_ix2]
  refine rowDot_rows _ _ _ _ p r k (fun l => ?_) (fun l => weights1_apply V c t (ix2 l k))
  rw [hiddenRow_ix2, hiddenRow_ix2, rows_apply V c t (ix2 p l) (ix2 r l) hr rfl, bias1_apply V c t (ix2 (0 : Fin 1) l)]

/-- What point t writes back is block t of the result. -/
theorem flushed_eq (c : Dev nD) (t : Fin cfg2.N) :
    (dat2 V c).flushed 6 t = ((cfg2.win 6).blk t).view.read (Elt Ideal) (result V c) := by
  show (cfg2.win 6).cut (grid2.coords t) ((dat2 V c).after 6 t) = _
  rw [after2_6]
  unfold out2_6
  rw [View.canon_unit_zero zero_offsets]
  simp only [View.ld_unit_zero (S := S5000x128) zero_offsets, View.ld_unit_zero (S := S1x128) zero_offsets, View.ld_unit_zero (S := S128x128) zero_offsets, View.ld_unit_zero (S := S128x8) zero_offsets, View.ld_unit_zero (S := S1x8) zero_offsets]
  obtain ⟨-, -, -, -, -, -, -, -, -, -, -, -, e0, e1⟩ := index_maps t
  funext j
  refine point_eq V c t j _ ?_ ?_
  · show win2_6.index t 0 * 5000 + 1 * (j 0).val = t.val * 5000 + (j 0).val; rw [e0]; omega
  · show win2_6.index t 1 * 8 + 1 * (j 1).val = (j 1).val; rw [e1]; omega

/-- An index of the array is in point t's block iff each coordinate is in the block's range on its axis. -/
theorem mem_blk (t : Fin cfg2.N) (i : S100000x8.Idx) :
    i ∈ ((cfg2.win 6).blk t).view.set ↔ ∀ a : Fin 2, win2_6.index t a * S5000x8.size a ≤ (i a).val ∧ (i a).val < win2_6.index t a * S5000x8.size a + S5000x8.size a := by
  show i ∈ ((View.whole main_v67).slice (win2_6.rect t)).set ↔ _
  rw [View.set_slice_whole, Rect.mem_set_unit]
  exact Iff.rfl

/-- Every row of the array lies in the block of the point numbered by the row divided by 5000. -/
theorem cover (i : S100000x8.Idx) :
    ∃ t : Fin cfg2.N, (cfg2.win 6).flush t = true ∧ i ∈ ((cfg2.win 6).blk t).view.set := by
  have hi0 : (i 0).val < 100000 := (i 0).isLt
  have hi1 : (i 1).val < 8 := (i 1).isLt
  have hN : cfg2.N = 20 := N_2
  have hlt : (i 0).val / 5000 < cfg2.N := by rw [hN]; omega
  obtain ⟨-, -, -, -, -, -, -, -, -, -, -, -, e0, e1⟩ := index_maps ⟨(i 0).val / 5000, hlt⟩
  refine ⟨⟨(i 0).val / 5000, hlt⟩, flush2_6 _, ?_⟩
  rw [mem_blk]
  intro a
  match a with
  | ⟨0, _⟩ =>
    show win2_6.index ⟨(i 0).val / 5000, hlt⟩ 0 * 5000 ≤ (i 0).val ∧ (i 0).val < win2_6.index ⟨(i 0).val / 5000, hlt⟩ 0 * 5000 + 5000
    rw [e0]
    show (i 0).val / 5000 * 5000 ≤ (i 0).val ∧ (i 0).val < (i 0).val / 5000 * 5000 + 5000
    omega
  | ⟨1, _⟩ =>
    show win2_6.index ⟨(i 0).val / 5000, hlt⟩ 1 * 8 ≤ (i 1).val ∧ (i 1).val < win2_6.index ⟨(i 0).val / 5000, hlt⟩ 1 * 8 + 8
    rw [e1]
    omega

/-- The output array after the call is the result, whatever the contents the call was entered with. -/
theorem final (c : Dev nD) : (dat2 V c).arrAt 6 cfg2.N = result V c :=
  (dat2 V c).arrAt_eq_of_cover 6 (result V c) (fun t _ => flushed_eq V c t) (fun i => cover i)

end Cert.KernelIdeal.Region2

end
-- ==== Proof.RefLayers.lean ====
/-
  The reference's three dense stages, read as the whole-array layer functions.

  The reference adds each bias by spreading the bias vector over the rows, takes the maximum with a spread zero, and
  multiplies by the weight matrix with the host's general dot product.  On the extended reals the dot product's entry
  (p, q) is the plain sum over the contracted coordinate, so each stage is the linear map of the hidden activation with
  the bias vector read as a one-row matrix, and the last stage adds the output bias.
-/
import proofs.«179961_j85727547228372_1_alg».proof.Proof.Gen.ReferenceIdeal.Read
import proofs.«179961_j85727547228372_1_alg».proof.Proof.LibLayers

noncomputable section

namespace Cert.ReferenceIdeal.RefLayers

open Cert.ReferenceIdeal Cert.ReferenceIdeal.Read Cert.Lib.Dense Cert.Layers
open Idealize.ShloMosaic Idealize.ShloMosaic.ValueIdx
open scoped BigOperators

variable (x0 : (⟨S100000x4, .f32⟩ : BufTy).Contents (Elt Ideal)) (x1 : (⟨S2x1600000, .i32⟩ : BufTy).Contents (Elt Ideal))
  (x2 : (⟨S512x2, .f32⟩ : BufTy).Contents (Elt Ideal)) (x3 : (⟨S100000, .i32⟩ : BufTy).Contents (Elt Ideal))
  (x4 : (⟨S6x128, .f32⟩ : BufTy).Contents (Elt Ideal)) (x5 : (⟨S128, .f32⟩ : BufTy).Contents (Elt Ideal))
  (x6 : (⟨S128x128, .f32⟩ : BufTy).Contents (Elt Ideal)) (x7 : (⟨S128, .f32⟩ : BufTy).Contents (Elt Ideal))
  (x8 : (⟨S128x128, .f32⟩ : BufTy).Contents (Elt Ideal)) (x9 : (⟨S128, .f32⟩ : BufTy).Contents (Elt Ideal))
  (x10 : (⟨S128x8, .f32⟩ : BufTy).Contents (Elt Ideal)) (x11 : (⟨S8, .f32⟩ : BufTy).Contents (Elt Ideal))

/-- The first stage: the node features against the first weight matrix. -/
theorem stage1 : val_main_v35 (F := Ideal) x0 x2 x3 x4 = lin (val_main_v34 (F := Ideal) x0 x2 x3) x4 := by
  funext i
  obtain ⟨p, q, rfl⟩ : ∃ (p : Fin 100000) (q : Fin 128), i = ix2 p q := ⟨i 0, i 1, eq_ix2 i⟩
  unfold val_main_v35
  exact dotGeneral_at dot_S100000x6_S6x128_S100000x128_1_0_0_1_n_n rfl rfl rfl rfl rfl rfl _ _ p q

/-- The first hidden activation at an entry. -/
theorem hidden1_at (p : Fin 100000) (k : Fin 128) :
    val_main_v52 (F := Ideal) x0 x1 x2 x3 x4 x5 (ix2 p k)
      = hiddenRow (val_main_v48 (F := Ideal) x0 x1 x2 x3 x4) (row x5) (ix2 p k) := by
  rw [val_main_v52_apply, val_main_v51_apply, val_main_v50_apply, val_main_v49_apply, val_main_call0_v0_apply,
    val_main_call0_cst_apply]
  have e : idx_main_v49 (idx_main_v50 (ix2 p k)) = ix1 k := funext fun a => Fin.ext (by match a with | ⟨0, _⟩ => rfl)
  rw [e]
  rfl

/-- The second stage: the linear map of the first hidden activation. -/
theorem stage2 : val_main_v53 (F := Ideal) x0 x1 x2 x3 x4 x5 x6
    = lin (hiddenRow (val_main_v48 (F := Ideal) x0 x1 x2 x3 x4) (row x5)) x6 := by
  funext i
  obtain ⟨p, q, rfl⟩ : ∃ (p : Fin 100000) (q : Fin 128), i = ix2 p q := ⟨i 0, i 1, eq_ix2 i⟩
  unfold val_main_v53
  refine (dotGeneral_at dot_S100000x128_S128x128_S100000x128_1_0_0_1_n_n rfl rfl rfl rfl rfl rfl _ _ p q).trans ?_
  rw [lin_ix2]
  unfold rowDot
  exact Finset.sum_congr rfl fun k _ => congrArg (fun z : EReal => z * x6 (ix2 k q)) (hidden1_at x0 x1 x2 x3 x4 x5 p k)

/-- The second hidden activation at an entry. -/
theorem hidden2_at (p : Fin 100000) (k : Fin 128) :
    val_main_v70 (F := Ideal) x0 x1 x2 x3 x4 x5 x6 x7 (ix2 p k)
      = hiddenRow (val_main_v66 (F := Ideal) x0 x1 x2 x3 x4 x5 x6) (row x7) (ix2 p k) := by
  rw [val_main_v70_apply, val_main_v69_apply, val_main_v68_apply, val_main_v67_apply, val_main_call1_v0_apply,
    val_main_call1_cst_apply]
  have e : idx_main_v67 (idx_main_v68 (ix2 p k)) = ix1 k := funext fun a => Fin.ext (by match a with | ⟨0, _⟩ => rfl)
  rw [e]
  rfl

/-- The head's first linear map. -/
theorem head_lin1 : val_main_v71 (F := Ideal) x0 x1 x2 x3 x4 x5 x6 x7 x8
    = lin (hiddenRow (val_main_v66 (F := Ideal) x0 x1 x2 x3 x4 x5 x6) (row x7)) x8 := by
  funext i
  obtain ⟨p, q, rfl⟩ : ∃ (p : Fin 100000) (q : Fin 128), i = ix2 p q := ⟨i 0, i 1, eq_ix2 i⟩
  unfold val_main_v71
  refine (dotGeneral_at dot_S100000x128_S128x128_S100000x128_1_0_0_1_n_n rfl rfl rfl rfl rfl rfl _ _ p q).trans ?_
  rw [lin_ix2]
  unfold rowDot
  exact Finset.sum_congr rfl fun k _ => congrArg (fun z : EReal => z * x8 (ix2 k q)) (hidden2_at x0 x1 x2 x3 x4 x5 x6 x7 p k)

/-- The third hidden activation at an entry. -/
theorem hidden3_at (p : Fin 100000) (k : Fin 128) :
    val_main_v75 (F := Ideal) x0 x1 x2 x3 x4 x5 x6 x7 x8 x9 (ix2 p k)
      = hiddenRow (val_main_v71 (F := Ideal) x0 x1 x2 x3 x4 x5 x6 x7 x8) (row x9) (ix2 p k) := by
  rw [val_main_v75_apply, val_main_v74_apply, val_main_v73_apply, val_main_v72_apply, val_main_call2_v0_apply,
    val_main_call2_cst_apply]
  have e : idx_main_v72 (idx_main_v73 (ix2 p k)) = ix1 k := funext fun a => Fin.ext (by match a with | ⟨0, _⟩ => rfl)
  rw [e]
  rfl

/-- The head's second linear map. -/
theorem head_lin2 : val_main_v76 (F := Ideal) x0 x1 x2 x3 x4 x5 x6 x7 x8 x9 x10
    = lin (hiddenRow (val_main_v71 (F := Ideal) x0 x1 x2 x3 x4 x5 x6 x7 x8) (row x9)) x10 := by
  funext i
  obtain ⟨p, q, rfl⟩ : ∃ (p : Fin 100000) (q : Fin 8), i = ix2 p q := ⟨i 0, i 1, eq_ix2 i⟩
  unfold val_main_v76
  refine (dotGeneral_at dot_S100000x128_S128x8_S100000x8_1_0_0_1_n_n rfl rfl rfl rfl rfl rfl _ _ p q).trans ?_
  rw [lin_ix2]
  unfold rowDot
  exact Finset.sum_congr rfl fun k _ => congrArg (fun z : EReal => z * x10 (ix2 k q))
    (hidden3_at x0 x1 x2 x3 x4 x5 x6 x7 x8 x9 p k)

/-- The third stage, the whole head: two hidden activations, two linear maps and the output bias. -/
theorem stage3 : val_main_v79 (F := Ideal) x0 x1 x2 x3 x4 x5 x6 x7 x8 x9 x10 x11
    = biasedRow (lin (hiddenRow (lin (hiddenRow (val_main_v66 (F := Ideal) x0 x1 x2 x3 x4 x5 x6) (row x7)) x8) (row x9)) x10)
        (row x11) := by
  funext i
  obtain ⟨p, q, rfl⟩ : ∃ (p : Fin 100000) (q : Fin 8), i = ix2 p q := ⟨i 0, i 1, eq_ix2 i⟩
  rw [val_main_v79_apply, val_main_v78_apply, val_main_v77_apply, head_lin2, head_lin1]
  have e : idx_main_v77 (idx_main_v78 (ix2 p q)) = ix1 q := funext fun a => Fin.ext (by match a with | ⟨0, _⟩ => rfl)
  rw [e]
  rfl

end Cert.ReferenceIdeal.RefLayers

end
-- ==== Proof.Bridge.lean ====
/-
  The idealized kernel program computes the reference's two results.

  The program alternates stretches of host operations with three pallas_calls.  Segment by segment, every buffer the
  next segment reads holds the value the reference program gives the buffer of the same role: the index vectors, the edge
  weights and the first layer's input after the first stretch; the first layer's linear map after the first call; its
  aggregation over the edges after the second stretch; the second layer's linear map after the second call; its
  aggregation after the third stretch; the head's output after the third call; and the two halves of that output after the
  last stretch.  The host stretches are the reference's own operations, and each call is the reference's dense stage
  because a row of a block depends only on the same row of the array.  No finiteness of the inputs is used.
-/
import proofs.«179961_j85727547228372_1_alg».proof.Proof.KernelRun
import proofs.«179961_j85727547228372_1_alg».proof.Proof.Host0
import proofs.«179961_j85727547228372_1_alg».proof.Proof.Host1
import proofs.«179961_j85727547228372_1_alg».proof.Proof.Host2
import proofs.«179961_j85727547228372_1_alg».proof.Proof.Region0
import proofs.«179961_j85727547228372_1_alg».proof.Proof.Region1
import proofs.«179961_j85727547228372_1_alg».proof.Proof.Region2
import proofs.«179961_j85727547228372_1_alg».proof.Proof.RefLayers

set_option maxRecDepth 16384

noncomputable section

namespace Cert.KernelIdeal.Bridge

open Cert.KernelIdeal Cert.KernelIdeal.Gen Cert.Layers
open Idealize.ShloMosaic Idealize.ShloMosaic.TcCoe Idealize.ShloMosaic.ValueIdx Idealize.SL.Sem Idealize.ShloMosaic.StableHlo
open Cert.ReferenceIdeal.Read (val_main_v3 val_main_v6 val_main_v26 val_main_v34 val_main_v35 val_main_v48 val_main_v53 val_main_v66
  val_main_v79 val_main_v80 val_main_v81)
open Cert.ReferenceIdeal.RefLayers (stage1 stage2 stage3)

variable (m : (ℓ : Loc nD τ sig) → Buf (Elt Ideal) ℓ) (ρ : Dev nD → PrngReg) (c : Dev nD)

set_option quotPrecheck false in
local notation "X" k => m ((c : Thread nD τ).loc k)

/-! ## After the first call -/

theorem src2 : W2 m ρ c (Proc.devRef .tc main_v3) = val_main_v3 (F := Ideal) (X main_arg1) :=
  (W2_of_ne m ρ c main_v3 (by decide)).trans (Host0.src_entry m ρ c)
theorem dst2 : W2 m ρ c (Proc.devRef .tc main_v6) = val_main_v6 (F := Ideal) (X main_arg1) :=
  (W2_of_ne m ρ c main_v6 (by decide)).trans (Host0.dst_entry m ρ c)
theorem norm2 : W2 m ρ c (Proc.devRef .tc main_v26) = val_main_v26 (F := Ideal) (X main_arg1) :=
  (W2_of_ne m ρ c main_v26 (by decide)).trans (Host0.norm_entry m ρ c)
theorem arg5_2 : W2 m ρ c (Proc.devRef .tc main_arg5) = X main_arg5 :=
  (W2_of_ne m ρ c main_arg5 (by decide)).trans (Host0.arg5_entry m ρ c)
theorem arg6_2 : W2 m ρ c (Proc.devRef .tc main_arg6) = X main_arg6 :=
  (W2_of_ne m ρ c main_arg6 (by decide)).trans (Host0.arg6_entry m ρ c)
theorem arg7_2 : W2 m ρ c (Proc.devRef .tc main_arg7) = X main_arg7 :=
  (W2_of_ne m ρ c main_arg7 (by decide)).trans (Host0.arg7_entry m ρ c)
theorem arg8_2 : W2 m ρ c (Proc.devRef .tc main_arg8) = X main_arg8 :=
  (W2_of_ne m ρ c main_arg8 (by decide)).trans (Host0.arg8_entry m ρ c)
theorem arg9_2 : W2 m ρ c (Proc.devRef .tc main_arg9) = X main_arg9 :=
  (W2_of_ne m ρ c main_arg9 (by decide)).trans (Host0.arg9_entry m ρ c)
theorem arg10_2 : W2 m ρ c (Proc.devRef .tc main_arg10) = X main_arg10 :=
  (W2_of_ne m ρ c main_arg10 (by decide)).trans (Host0.arg10_entry m ρ c)
theorem arg11_2 : W2 m ρ c (Proc.devRef .tc main_arg11) = X main_arg11 :=
  (W2_of_ne m ρ c main_arg11 (by decide)).trans (Host0.arg11_entry m ρ c)

/-- The first call's output is the reference's first linear map. -/
theorem first_stage : W2 m ρ c (Proc.devRef .tc main_v35) = val_main_v35 (F := Ideal) (X main_arg0) (X main_arg2) (X main_arg3) (X main_arg4) := by
  refine (W2_arr m ρ c 2).trans ((Region0.final (V1 m ρ) c).trans ?_)
  unfold Region0.result
  rw [stage1]
  show lin (W1 m ρ c (Proc.devRef .tc main_v34) : S100000x6.Idx → EReal) (W1 m ρ c (Proc.devRef .tc main_arg4) : S6x128.Idx → EReal) = _
  rw [Host0.input_entry m ρ c, Host0.arg4_entry m ρ c]

/-! ## After the second stretch and the second call -/

theorem agg1 : W3 m ρ c (Proc.devRef .tc main_v48) = val_main_v48 (F := Ideal) (X main_arg0) (X main_arg1) (X main_arg2) (X main_arg3) (X main_arg4) :=
  Host1.aggregated m ρ c (first_stage m ρ c) (src2 m ρ c) (dst2 m ρ c) (norm2 m ρ c)

theorem src4 : W4 m ρ c (Proc.devRef .tc main_v3) = val_main_v3 (F := Ideal) (X main_arg1) :=
  (W4_of_ne m ρ c main_v3 (by decide)).trans ((Host1.keep_main_v3 m ρ c).trans (src2 m ρ c))
theorem dst4 : W4 m ρ c (Proc.devRef .tc main_v6) = val_main_v6 (F := Ideal) (X main_arg1) :=
  (W4_of_ne m ρ c main_v6 (by decide)).trans ((Host1.keep_main_v6 m ρ c).trans (dst2 m ρ c))
theorem norm4 : W4 m ρ c (Proc.devRef .tc main_v26) = val_main_v26 (F := Ideal) (X main_arg1) :=
  (W4_of_ne m ρ c main_v26 (by decide)).trans ((Host1.keep_main_v26 m ρ c).trans (norm2 m ρ c))
theorem arg7_4 : W4 m ρ c (Proc.devRef .tc main_arg7) = X main_arg7 :=
  (W4_of_ne m ρ c main_arg7 (by decide)).trans ((Host1.keep_main_arg7 m ρ c).trans (arg7_2 m ρ c))
theorem arg8_4 : W4 m ρ c (Proc.devRef .tc main_arg8) = X main_arg8 :=
  (W4_of_ne m ρ c main_arg8 (by decide)).trans ((Host1.keep_main_arg8 m ρ c).trans (arg8_2 m ρ c))
theorem arg9_4 : W4 m ρ c (Proc.devRef .tc main_arg9) = X main_arg9 :=
  (W4_of_ne m ρ c main_arg9 (by decide)).trans ((Host1.keep_main_arg9 m ρ c).trans (arg9_2 m ρ c))
theorem arg10_4 : W4 m ρ c (Proc.devRef .tc main_arg10) = X main_arg10 :=
  (W4_of_ne m ρ c main_arg10 (by decide)).trans ((Host1.keep_main_arg10 m ρ c).trans (arg10_2 m ρ c))
theorem arg11_4 : W4 m ρ c (Proc.devRef .tc main_arg11) = X main_arg11 :=
  (W4_of_ne m ρ c main_arg11 (by decide)).trans ((Host1.keep_main_arg11 m ρ c).trans (arg11_2 m ρ c))

/-- The second call's output is the reference's second linear map. -/
theorem second_stage : W4 m ρ c (Proc.devRef .tc main_v50) = val_main_v53 (F := Ideal) (X main_arg0) (X main_arg1) (X main_arg2) (X main_arg3) (X main_arg4) (X main_arg5) (X main_arg6) := by
  refine (W4_arr m ρ c 3).trans ((Region1.final (V3 m ρ) c).trans ?_)
  unfold Region1.result
  rw [stage2]
  show lin (hiddenRow (W3 m ρ c (Proc.devRef .tc main_v48) : S100000x128.Idx → EReal) (W3 m ρ c (Proc.devRef .tc main_v49) : S1x128.Idx → EReal))
    (W3 m ρ c (Proc.devRef .tc main_arg6) : S128x128.Idx → EReal) = _
  rw [agg1 m ρ c, Host1.bias_row m ρ c (arg5_2 m ρ c), (Host1.keep_main_arg6 m ρ c).trans (arg6_2 m ρ c)]

/-! ## After the third stretch and the third call -/

theorem agg2 : W5 m ρ c (Proc.devRef .tc main_v63) = val_main_v66 (F := Ideal) (X main_arg0) (X main_arg1) (X main_arg2) (X main_arg3) (X main_arg4) (X main_arg5) (X main_arg6) :=
  Host2.aggregated m ρ c (second_stage m ρ c) (src4 m ρ c) (dst4 m ρ c) (norm4 m ρ c)

/-- The third call's output is the reference's head. -/
theorem head : W6 m ρ c (Proc.devRef .tc main_v67) = val_main_v79 (F := Ideal) (X main_arg0) (X main_arg1) (X main_arg2) (X main_arg3) (X main_arg4) (X main_arg5) (X main_arg6) (X main_arg7) (X main_arg8) (X main_arg9) (X main_arg10) (X main_arg11) := by
  refine (W6_arr m ρ c 6).trans ((Region2.final (V5 m ρ) c).trans ?_)
  unfold Region2.result
  rw [stage3]
  show biasedRow (lin (hiddenRow (lin (hiddenRow (W5 m ρ c (Proc.devRef .tc main_v63) : S100000x128.Idx → EReal)
      (W5 m ρ c (Proc.devRef .tc main_v64) : S1x128.Idx → EReal)) (W5 m ρ c (Proc.devRef .tc main_arg8) : S128x128.Idx → EReal))
      (W5 m ρ c (Proc.devRef .tc main_v65) : S1x128.Idx → EReal)) (W5 m ρ c (Proc.devRef .tc main_arg10) : S128x8.Idx → EReal))
      (W5 m ρ c (Proc.devRef .tc main_v66) : S1x8.Idx → EReal) = _
  rw [agg2 m ρ c, Host2.bias_row1 m ρ c (arg7_4 m ρ c), (Host2.keep_main_arg8 m ρ c).trans (arg8_4 m ρ c),
    Host2.bias_row2 m ρ c (arg9_4 m ρ c), (Host2.keep_main_arg10 m ρ c).trans (arg10_4 m ρ c),
    Host2.bias_row3 m ρ c (arg11_4 m ρ c)]

/-! ## After the last stretch: the two results -/

theorem result0 : W7 m ρ c (Proc.devRef .tc main_v68) = val_main_v80 (F := Ideal) (X main_arg0) (X main_arg1) (X main_arg2) (X main_arg3) (X main_arg4) (X main_arg5) (X main_arg6) (X main_arg7) (X main_arg8) (X main_arg9) (X main_arg10) (X main_arg11) := by
  dsimp only [W7, hostOps3]
  after_results_simp
  rw [head m ρ c]
  rfl

theorem result1 : W7 m ρ c (Proc.devRef .tc main_v69) = val_main_v81 (F := Ideal) (X main_arg0) (X main_arg1) (X main_arg2) (X main_arg3) (X main_arg4) (X main_arg5) (X main_arg6) (X main_arg7) (X main_arg8) (X main_arg9) (X main_arg10) (X main_arg11) := by
  dsimp only [W7, hostOps3]
  after_results_simp
  rw [head m ρ c]
  rfl

end Cert.KernelIdeal.Bridge

/-! ## The run, read -/

namespace Cert.KernelIdeal.Bridge

open Cert.KernelIdeal Cert.KernelIdeal.Gen
open Idealize.ShloMosaic Idealize.ShloMosaic.TcCoe Idealize.SL.Sem
open Cert.ReferenceIdeal.Read (val_main_v80 val_main_v81)

/-- Every weakly fair execution of the idealized kernel program terminates with the two results at the reference's two
    result functions of the argument arrays, the arguments unchanged. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v68) = val_main_v80 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_v69) = val_main_v81 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨(Results.final_at m ρ h c main_v68 (by decide)).trans (result0 m ρ c),
     (Results.final_at m ρ h c main_v69 (by decide)).trans (result1 m ρ c),
     (Results.final_at m ρ h c main_arg0 (by decide)).trans (W7_main_arg0 m ρ c),
     (Results.final_at m ρ h c main_arg1 (by decide)).trans (W7_main_arg1 m ρ c),
     (Results.final_at m ρ h c main_arg2 (by decide)).trans (W7_main_arg2 m ρ c),
     (Results.final_at m ρ h c main_arg3 (by decide)).trans (W7_main_arg3 m ρ c),
     (Results.final_at m ρ h c main_arg4 (by decide)).trans (W7_main_arg4 m ρ c),
     (Results.final_at m ρ h c main_arg5 (by decide)).trans (W7_main_arg5 m ρ c),
     (Results.final_at m ρ h c main_arg6 (by decide)).trans (W7_main_arg6 m ρ c),
     (Results.final_at m ρ h c main_arg7 (by decide)).trans (W7_main_arg7 m ρ c),
     (Results.final_at m ρ h c main_arg8 (by decide)).trans (W7_main_arg8 m ρ c),
     (Results.final_at m ρ h c main_arg9 (by decide)).trans (W7_main_arg9 m ρ c),
     (Results.final_at m ρ h c main_arg10 (by decide)).trans (W7_main_arg10 m ρ c),
     (Results.final_at m ρ h c main_arg11 (by decide)).trans (W7_main_arg11 m ρ c)⟩)
    (Results.run_buffers m ρ)

end Cert.KernelIdeal.Bridge

end
-- ==== Proof.lean ====
/-
  The certificate of a two-layer graph convolution followed by a small head, computed by three pallas_calls among
  host operations, against the plain reference.

  Both programs first build, from the edge list, the source and destination index of every edge (one self loop per node
  appended) and the edge's weight, the product of the inverse square roots of the two endpoint degrees; they gather the
  per-graph conditioning row of every node and put it beside the node's features.  Then, twice, they apply a dense map to
  every node, gather the transformed row of every edge's source, scale it by the edge's weight and add it into the row of
  the edge's destination; a head of two more dense maps follows, and the eight output columns are split into two results.

  The kernel program differs from the reference only in how the dense maps are computed: in blocks of 5000 rows, with the
  operands narrowed to bf16 on the way into the matrix unit, and with each bias and activation fused into the call that
  consumes it.  On the extended reals the narrowing is the identity and a product accumulated from zero is the plain sum,
  and every row of a block depends only on the same row of the array, so each call computes the reference's dense map of
  the whole array.  The gathers, scalings and scatter-adds are the same operations applied to equal arrays.  No algebraic
  law that could fail at an infinity is used, so the precondition is never opened.

  The idealization rewrote no operation, so the preservation claim is trivial; the three frame claims are the generated
  frame certificates, the reference's being its generated run with the results dropped.
-/
import proofs.«179961_j85727547228372_1_alg».proof.Defs
import proofs.«179961_j85727547228372_1_alg».proof.Proof.Gen.Kernel
import proofs.«179961_j85727547228372_1_alg».proof.Proof.Gen.Kernel.Frame
import proofs.«179961_j85727547228372_1_alg».proof.Proof.Gen.KernelIdeal
import proofs.«179961_j85727547228372_1_alg».proof.Proof.Gen.KernelIdeal.Frame
import proofs.«179961_j85727547228372_1_alg».proof.Proof.Gen.ReferenceIdeal
import proofs.«179961_j85727547228372_1_alg».proof.Proof.Gen.ReferenceIdeal.Run
import proofs.«179961_j85727547228372_1_alg».proof.Proof.Gen.ReferenceIdeal.Read
import proofs.«179961_j85727547228372_1_alg».proof.Proof.Gen.Pre_finite_inputs
import proofs.«179961_j85727547228372_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_ideal : Cert.frame_KernelIdeal := fun m ρ _ => Cert.KernelIdeal.Gen.frame m ρ

/-- The reference's frame is its run with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- Both programs end with their two results at the reference's two result functions of the argument arrays, which
    agree. -/
theorem algebraic : Cert.algebraic_KernelIdeal_ReferenceIdeal := by
  intro m ρ m' ρ' _ hagree
  refine ⟨_, _, Cert.KernelIdeal.Bridge.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v80_eq m' c]
    obtain ⟨a0, a1, a2, a3, a4, a5, a6, a7, a8, a9, a10, a11⟩ := hagree c
    rw [a0, a1, a2, a3, a4, a5, a6, a7, a8, a9, a10, a11]
  · rw [Cert.ReferenceIdeal.Read.val_main_v81_eq m' c]
    obtain ⟨a0, a1, a2, a3, a4, a5, a6, a7, a8, a9, a10, a11⟩ := hagree c
    rw [a0, a1, a2, a3, a4, a5, a6, a7, a8, a9, a10, a11]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
